-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512x256 : Shape := ⟨3, ![512, 512, 256]⟩
abbrev S256x512 : Shape := ⟨2, ![256, 512]⟩
abbrev S256 : Shape := ⟨1, ![256]⟩
abbrev S_ : Shape := ⟨0, ![]⟩

class Facts : Prop where
  bcast_S_S512x512x256 : S_.BroadcastsInDim S512x512x256 (![] : Fin 0 → Fin S512x512x256.rank)
  reducesTo_S512x512x256_S_d0_1_2 : S512x512x256.ReducesTo [0, 1, 2] S_
  h_S_ : 0 < S_.numel
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S512x512x256 .f32) (main_arg1 : FVec F S256x512 .f32) (main_arg2 : FVec F S256 .f32) : IVec S_ 1 :=
  let main_v0 : FVec F S512x512x256 .f32 := Host.absf main_arg0
  let main_cst : FVec F S_ .f32 := constant S_ .f32 0x7F800000#32
  let main_v1 : FVec F S512x512x256 .f32 := broadcastInDim S512x512x256 ![] bcast_S_S512x512x256 main_cst
  let main_v2 : IVec S512x512x256 1 := cmpf .olt main_v0 main_v1
  let main_c : IVec S_ 1 := constantI S_ 1 1#1
  let main_v3 : IVec S_ 1 := (fun x v => Host.reduce IntOp.andi x v reducesTo_S512x512x256_S_d0_1_2 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S512x512x256 : Shape := ⟨3, ![512, 512, 256]⟩
abbrev S256x512 : Shape := ⟨2, ![256, 512]⟩
abbrev S256 : Shape := ⟨1, ![256]⟩
abbrev S256x256 : Shape := ⟨2, ![256, 256]⟩
abbrev S512x256 : Shape := ⟨2, ![512, 256]⟩
abbrev S4x512x256 : Shape := ⟨3, ![4, 512, 256]⟩
abbrev S128x128x256 : Shape := ⟨3, ![128, 128, 256]⟩
abbrev S128x256 : Shape := ⟨2, ![128, 256]⟩
abbrev S1x128x256 : Shape := ⟨3, ![1, 128, 256]⟩
abbrev S_ : Shape := ⟨0, ![]⟩
abbrev S64x256 : Shape := ⟨2, ![64, 256]⟩
abbrev S64x128x256 : Shape := ⟨3, ![64, 128, 256]⟩
abbrev S64x1x256 : Shape := ⟨3, ![64, 1, 256]⟩
abbrev S1x1x256 : Shape := ⟨3, ![1, 1, 256]⟩

abbrev nBuf : Space → Nat
  | .hbm => 12
  | .vmem => 13
  | .smem => 0
  | _ => 0

abbrev bufTy : (tb : Table) → Fin (tcTables nBuf tb) → BufTy
  | .hbm, ⟨0, _⟩ => ⟨S512x512x256, .f32⟩
  | .hbm, ⟨1, _⟩ => ⟨S256x512, .f32⟩
  | .hbm, ⟨2, _⟩ => ⟨S256, .f32⟩
  | .hbm, ⟨3, _⟩ => ⟨S256x256, .f32⟩
  | .hbm, ⟨4, _⟩ => ⟨S256x256, .f32⟩
  | .hbm, ⟨5, _⟩ => ⟨S512x256, .f32⟩
  | .hbm, ⟨6, _⟩ => ⟨S4x512x256, .f32⟩
  | .hbm, ⟨7, _⟩ => ⟨S_, .f32⟩
  | .hbm, ⟨8, _⟩ => ⟨S512x256, .f32⟩
  | .hbm, ⟨9, _⟩ => ⟨S512x256, .f32⟩
  | .hbm, ⟨10, _⟩ => ⟨S512x256, .f32⟩
  | .hbm, ⟨11, _⟩ => ⟨S512x512x256, .f32⟩
  | .local _ .vmem, ⟨0, _⟩ => ⟨S128x128x256, .f32⟩
  | .local _ .vmem, ⟨1, _⟩ => ⟨S128x128x256, .f32⟩
  | .local _ .vmem, ⟨2, _⟩ => ⟨S128x256, .f32⟩
  | .local _ .vmem, ⟨3, _⟩ => ⟨S128x256, .f32⟩
  | .local _ .vmem, ⟨4, _⟩ => ⟨S1x128x256, .f32⟩
  | .local _ .vmem, ⟨5, _⟩ => ⟨S1x128x256, .f32⟩
  | .local _ .vmem, ⟨6, _⟩ => ⟨S64x256, .f32⟩
  | .local _ .vmem, ⟨7, _⟩ => ⟨S64x256, .f32⟩
  | .local _ .vmem, ⟨8, _⟩ => ⟨S128x256, .f32⟩
  | .local _ .vmem, ⟨9, _⟩ => ⟨S128x256, .f32⟩
  | .local _ .vmem, ⟨10, _⟩ => ⟨S256, .f32⟩
  | .local _ .vmem, ⟨11, _⟩ => ⟨S64x128x256, .f32⟩
  | .local _ .vmem, ⟨12, _⟩ => ⟨S64x128x256, .f32⟩
  | _, _ => ⟨S512x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .ne arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S128x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![8, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S64x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S128x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S64x128x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  slices_S256x512_S256x256_0_0 : S256x512.Slices ![0, 0] S256x256
  slices_S256x512_S256x256_0_256 : S256x512.Slices ![0, 256] S256x256
  inb_S128x128x256_S128x128x256_0_0_0 : ∀ a, (![0, 0, 0] : Fin 3 → Nat) a + S128x128x256.size a ≤ S128x128x256.size a
  h_S128x128x256 : 0 < S128x128x256.numel
  reduces_S128x128x256_S128x256 : S128x128x256.Reduces [1] S128x256
  inb_S128x256_S128x256_0_0 : ∀ a, (![0, 0] : Fin 2 → Nat) a + S128x256.size a ≤ S128x256.size a
  h_S128x256 : 0 < S128x256.numel
  shapeCasts_S128x256_S128x256 : S128x256.ShapeCasts S128x256
  reduces_S128x128x256_S128x256_2 : S128x128x256.Reduces [0] S128x256
  shapeCasts_S128x256_S1x128x256 : S128x256.ShapeCasts S1x128x256
  inb_S1x128x256_S1x128x256_0_0_0 : ∀ a, (![0, 0, 0] : Fin 3 → Nat) a + S1x128x256.size a ≤ S1x128x256.size a
  h_S1x128x256 : 0 < S1x128x256.numel
  reducesTo_S4x512x256_S512x256_d0 : S4x512x256.ReducesTo [0] S512x256
  h_S_ : 0 < S_.numel
  inb_S64x256_S64x256_0_0 : ∀ a, (![0, 0] : Fin 2 → Nat) a + S64x256.size a ≤ S64x256.size a
  h_S64x256 : 0 < S64x256.numel
  shapeCasts_S64x256_S64x256 : S64x256.ShapeCasts S64x256
  shapeCasts_S64x256_S64x1x256 : S64x256.ShapeCasts S64x1x256
  broadcasts_S64x1x256_S64x128x256 : S64x1x256.Broadcasts S64x128x256
  broadcasts_S1x128x256_S64x128x256 : S1x128x256.Broadcasts S64x128x256
  inb_S256_S256_0 : ∀ a, (![0] : Fin 1 → Nat) a + S256.size a ≤ S256.size a
  h_S256 : 0 < S256.numel
  shapeCasts_S256_S1x1x256 : S256.ShapeCasts S1x1x256
  broadcasts_S1x1x256_S64x128x256 : S1x1x256.Broadcasts S64x128x256
  inb_S64x128x256_S64x128x256_0_0_0 : ∀ a, (![0, 0, 0] : Fin 3 → Nat) a + S64x128x256.size a ≤ S64x128x256.size a
  h_S64x128x256 : 0 < S64x128x256.numel
  dot_S512x256_S256x256_S512x256_1_1_0_0_n_n_wf : DotDims.WF S512x256 S256x256 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128x256.size a ≤ S512x512x256.size a
  hwx0_0 : ∀ i : grid0.Coords, EltTy.bits .f32 = 32 ∨ (Rect.block (s := S512x512x256) S128x128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S512x256.size a
  hwx0_1 : ∀ i : grid0.Coords, EltTy.bits .f32 = 32 ∨ (Rect.block (s := S512x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x256.size a ≤ S4x512x256.size a
  hwx0_2 : ∀ i : grid0.Coords, EltTy.bits .f32 = 32 ∨ (Rect.block (s := S4x512x256) S1x128x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x256.size a ≤ S512x256.size a
  hwx1_0 : ∀ i : grid1.Coords, EltTy.bits .f32 = 32 ∨ (Rect.block (s := S512x256) S64x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x256.size a ≤ S512x256.size a
  hwx1_1 : ∀ i : grid1.Coords, EltTy.bits .f32 = 32 ∨ (Rect.block (s := S512x256) S128x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S64x128x256.size a ≤ S512x512x256.size a
  hwx1_3 : ∀ i : grid1.Coords, EltTy.bits .f32 = 32 ∨ (Rect.block (s := S512x512x256) S64x128x256.size (cc1_transform_3 i) (hinb1_3 i)).WholeWords (EltTy.packing .f32)

variable [Facts₀]

def dot_S512x256_S256x256_S512x256_1_1_0_0_n_n : DotDims S512x256 S256x256 S512x256 where
  lhsContracting := [1]
  rhsContracting := [1]
  lhsNonContracting := [0]
  rhsNonContracting := [0]
  lhsBatch := []
  rhsBatch := []
  wf := dot_S512x256_S256x256_S512x256_1_1_0_0_n_n_wf

abbrev win0_0 : Pipeline.Window sig grid0 :=
  Pipeline.Window.ofSpec (Memref.whole main_arg0) S128x128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2_0) S128x256.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_1) S1x128x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun i => !(k0_cond1 i == 1#1) && !(k0_cond2 i == 1#1) | 2 => fun _ => false | ⟨_ + 3, h⟩ => absurd h (Nat.not_lt.2 (Nat.le_add_left _ _))

abbrev win1_0 : Pipeline.Window sig grid1 :=
  Pipeline.Window.ofSpec (Memref.whole main_v4) S64x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S128x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S64x128x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S512x512x256 : Shape := ⟨3, ![512, 512, 256]⟩
abbrev S256x512 : Shape := ⟨2, ![256, 512]⟩
abbrev S256 : Shape := ⟨1, ![256]⟩
abbrev S_ : Shape := ⟨0, ![]⟩
abbrev S512x256 : Shape := ⟨2, ![512, 256]⟩
abbrev S256x256 : Shape := ⟨2, ![256, 256]⟩
abbrev S512x1x256 : Shape := ⟨3, ![512, 1, 256]⟩
abbrev S1x512x256 : Shape := ⟨3, ![1, 512, 256]⟩
abbrev S1x1x256 : Shape := ⟨3, ![1, 1, 256]⟩

abbrev nBuf : Space → Nat
  | .hbm => 19
  | .vmem => 0
  | .smem => 0
  | _ => 0

abbrev bufTy : (tb : Table) → Fin (tcTables nBuf tb) → BufTy
  | .hbm, ⟨0, _⟩ => ⟨S512x512x256, .f32⟩
  | .hbm, ⟨1, _⟩ => ⟨S256x512, .f32⟩
  | .hbm, ⟨2, _⟩ => ⟨S256, .f32⟩
  | .hbm, ⟨3, _⟩ => ⟨S_, .f32⟩
  | .hbm, ⟨4, _⟩ => ⟨S512x256, .f32⟩
  | .hbm, ⟨5, _⟩ => ⟨S_, .f32⟩
  | .hbm, ⟨6, _⟩ => ⟨S512x256, .f32⟩
  | .hbm, ⟨7, _⟩ => ⟨S256x256, .f32⟩
  | .hbm, ⟨8, _⟩ => ⟨S256x256, .f32⟩
  | .hbm, ⟨9, _⟩ => ⟨S512x256, .f32⟩
  | .hbm, ⟨10, _⟩ => ⟨S512x256, .f32⟩
  | .hbm, ⟨11, _⟩ => ⟨S512x1x256, .f32⟩
  | .hbm, ⟨12, _⟩ => ⟨S1x512x256, .f32⟩
  | .hbm, ⟨13, _⟩ => ⟨S512x512x256, .f32⟩
  | .hbm, ⟨14, _⟩ => ⟨S512x512x256, .f32⟩
  | .hbm, ⟨15, _⟩ => ⟨S512x512x256, .f32⟩
  | .hbm, ⟨16, _⟩ => ⟨S1x1x256, .f32⟩
  | .hbm, ⟨17, _⟩ => ⟨S512x512x256, .f32⟩
  | .hbm, ⟨18, _⟩ => ⟨S512x512x256, .f32⟩
  | _, _ => ⟨S512x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]

class Facts₀ : Prop where
  reducesTo_S512x512x256_S512x256_d1 : S512x512x256.ReducesTo [1] S512x256
  h_S_ : 0 < S_.numel
  reducesTo_S512x512x256_S512x256_d0 : S512x512x256.ReducesTo [0] S512x256
  slices_S256x512_S256x256_0_0 : S256x512.Slices ![0, 0] S256x256
  slices_S256x512_S256x256_0_256 : S256x512.Slices ![0, 256] S256x256
  bcast_S512x256_S512x1x256_0_2 : S512x256.BroadcastsInDim S512x1x256 (![0, 2] : Fin 2 → Fin S512x1x256.rank)
  bcast_S512x256_S1x512x256_1_2 : S512x256.BroadcastsInDim S1x512x256 (![1, 2] : Fin 2 → Fin S1x512x256.rank)
  bcast_S512x1x256_S512x512x256_0_1_2 : S512x1x256.BroadcastsInDim S512x512x256 (![0, 1, 2] : Fin 3 → Fin S512x512x256.rank)
  bcast_S1x512x256_S512x512x256_0_1_2 : S1x512x256.BroadcastsInDim S512x512x256 (![0, 1, 2] : Fin 3 → Fin S512x512x256.rank)
  bcast_S256_S1x1x256_2 : S256.BroadcastsInDim S1x1x256 (![2] : Fin 1 → Fin S1x1x256.rank)
  bcast_S1x1x256_S512x512x256_0_1_2 : S1x1x256.BroadcastsInDim S512x512x256 (![0, 1, 2] : Fin 3 → Fin S512x512x256.rank)
  dot_S512x256_S256x256_S512x256_1_1_0_0_n_n_wf : DotDims.WF S512x256 S256x256 S512x256 [1] [1] [0] [0] [] []

variable [Facts₀]

def dot_S512x256_S256x256_S512x256_1_1_0_0_n_n : DotDims S512x256 S256x256 S512x256 where
  lhsContracting := [1]
  rhsContracting := [1]
  lhsNonContracting := [0]
  rhsNonContracting := [0]
  lhsBatch := []
  rhsBatch := []
  wf := dot_S512x256_S256x256_S512x256_1_1_0_0_n_n_wf

class Facts : Prop extends Facts₀ where

variable [Facts]
-- ==== Proof.DataB.lean ====
/-
  What the two kernels leave behind, as data: for each of the two pipelined calls, every window's block of its
  array at a grid point, what the body's stores leave in each output's staging buffer there, and the contents of
  every buffer at the boundaries between the host operations and the calls.

  First call (grid 4 x 4, point t = 4 i + j): the input block is x[128 i .. , 128 j .. , :]; the body stores the
  block's maximum over its 128 columns into the row-maximum buffer when j = 0 and the maximum of that buffer and
  the block's column-maximum when j > 0 (the buffer is written back after j = 3), and stores the block's maximum
  over its 128 rows into the partial buffer (written back at every point).
  Second call (grid 8 x 4): the body stores p[t, g] + q[s, g] + b[g] over a 64 x 128 x 256 block.
-/
import proofs.«104515_j28578712388215_2_alg».proof.Proof.Gen.Kernel.Launch
import proofs.«104515_j28578712388215_2_alg».proof.Proof.Gen.Kernel.Skeleton
import proofs.«104515_j28578712388215_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Regions
-- the buffer contents when a call is entered: the parameter each call's half is stated at
variable (V : (c : Dev nD) → (b : Ref sig .tc) → Buf (Elt F) ((c : Thread nD τ).loc b))

/-! # The first call -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles the body reads and writes through. -/
abbrev rX : Rect S128x128x256 := Rect.unit (s := S128x128x256) ![0, 0, 0] S128x128x256.size inb_S128x128x256_S128x128x256_0_0_0
abbrev rA : Rect S128x256 := Rect.unit (s := S128x256) ![0, 0] S128x256.size inb_S128x256_S128x256_0_0
abbrev rP : Rect S1x128x256 := Rect.unit (s := S1x128x256) ![0, 0, 0] S1x128x256.size inb_S1x128x256_S1x128x256_0_0_0

/-- The row-maximum buffer after the body at a point with j = 0: the input block's maximum over its columns. -/
def accFirst (x0 : Vec F S128x128x256 .f32) : Vec F S128x256 .f32 :=
  View.canon [⟨rA, k0_pay1 (View.ld x0 rX)⟩]

/-- The row-maximum buffer after the body at a point with j > 0: the maximum of what it held and the block's. -/
def accNext (x0 : Vec F S128x128x256 .f32) (acc : Vec F S128x256 .f32) : Vec F S128x256 .f32 :=
  View.canon [⟨rA, k0_pay2 (View.ld acc rA) (View.ld x0 rX)⟩]

/-- The partial buffer after the body: the input block's maximum over its rows. -/
def partOf (x0 : Vec F S128x128x256 .f32) : Vec F S1x128x256 .f32 :=
  View.canon [⟨rP, k0_pay3 (View.ld x0 rX)⟩]

/-- What the row-maximum buffer holds after the body at position `n`: started afresh where j = 0, else carried
    over from the point before (the buffer is not written back in between). -/
def accAt (c : Dev nD) : (n : ℕ) → n < cfg0.N → Vec F S128x256 .f32
  | 0, hn => accFirst (iblk0 V c 0 ⟨0, hn⟩)
  | n + 1, hn =>
    if (n + 1) % 4 = 0 then accFirst (iblk0 V c 0 ⟨n + 1, hn⟩)
    else accNext (iblk0 V c 0 ⟨n + 1, hn⟩) (accAt c n (Nat.lt_of_succ_lt hn))

theorem accAt_first (c : Dev nD) (t : Fin cfg0.N) (h0 : t.val % 4 = 0) :
    accAt V c t.val t.isLt = accFirst (iblk0 V c 0 t) := by
  obtain ⟨n, hn⟩ := t
  cases n with
  | zero => exact rfl
  | succ n => exact (if_pos h0).trans rfl

theorem accAt_next (c : Dev nD) (t : Fin cfg0.N) (h0 : ¬t.val % 4 = 0) :
    accAt V c t.val t.isLt = accNext (iblk0 V c 0 t) (accAt V c (t.val - 1) (Nat.lt_of_le_of_lt (Nat.sub_le _ _) t.isLt)) := by
  obtain ⟨n, hn⟩ := t
  cases n with
  | zero => exact absurd (Nat.zero_mod _) h0
  | succ n => exact (if_neg h0).trans rfl

/-- The proof data of the first call on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => accAt V c t.val t.isLt
    | ⟨2, _⟩ => partOf (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = accAt V c t.val t.isLt := by dsimp only [dat0]
theorem after0_2 (c : Dev nD) (t : Fin cfg0.N) : (dat0 V c).after 2 t = partOf (iblk0 V c 0 t) := by dsimp only [dat0]

/-! # The second call -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rS : Rect S64x256 := Rect.unit (s := S64x256) ![0, 0] S64x256.size inb_S64x256_S64x256_0_0
abbrev rT : Rect S128x256 := Rect.unit (s := S128x256) ![0, 0] S128x256.size inb_S128x256_S128x256_0_0
abbrev rB : Rect S256 := Rect.unit (s := S256) ![0] S256.size inb_S256_S256_0
abbrev rO : Rect S64x128x256 := Rect.unit (s := S64x128x256) ![0, 0, 0] S64x128x256.size inb_S64x128x256_S64x128x256_0_0_0

/-- The output buffer after the body: the sum of the three input blocks, spread over the block. -/
def sumOf (x0 : Vec F S64x256 .f32) (x1 : Vec F S128x256 .f32) (x2 : Vec F S256 .f32) : Vec F S64x128x256 .f32 :=
  View.canon [⟨rO, k1_pay1 (View.ld x0 rS) (View.ld x1 rT) (View.ld x2 rB)⟩]

/-- The proof data of the second call on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => sumOf (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = sumOf (iblk1 V c 0 t) (iblk1 V c 1 t) (iblk1 V c 2 t) := by dsimp only [dat1]

end Regions

/-! # The buffer contents at each boundary -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the two slices (the first call's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first call's exit: its arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host operations between the calls (the second call's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second call's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

end Cert.Kernel.Hand

end
-- ==== Proof.Body0B.lean ====
/-
  The first call's body at a grid point t = 4 i + j. Where j = 0 it stores the input block's maximum over its
  columns into the row-maximum buffer; where j > 0 it stores the maximum of what that buffer holds (what the point
  before left: the buffer is written back only after j = 3) and the block's column-maximum; at every point it
  stores the block's maximum over its rows into the partial buffer. Exactly one of the two branch conditions
  holds at each point, so the row-maximum buffer is stored into at every point.
-/
import proofs.«104515_j28578712388215_2_alg».proof.Proof.DataB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The branch conditions over the grid -/

/-- The first branch is taken exactly where j = 0, -/
theorem hcond1 : ∀ t : Fin cfg0.N, k0_cond1 (grid0.coords t) = 1#1 ↔ t.val % 4 = 0 :=
  (by decide +kernel : ∀ t : Fin grid0.N, k0_cond1 (grid0.coords t) = 1#1 ↔ t.val % 4 = 0)
/-- the second exactly where j > 0. -/
theorem hcond2 : ∀ t : Fin cfg0.N, k0_cond2 (grid0.coords t) = 1#1 ↔ ¬t.val % 4 = 0 :=
  (by decide +kernel : ∀ t : Fin grid0.N, k0_cond2 (grid0.coords t) = 1#1 ↔ ¬t.val % 4 = 0)

/-- One of the two branches stores into the row-maximum buffer whatever the coordinates: no point is idle for it. -/
theorem live0_1 : ∀ i : grid0.Coords, cfg0.idle 1 i = false := by
  intro i
  show (!(k0_cond1 i == 1#1) && !(k0_cond2 i == 1#1)) = false
  unfold k0_cond1 k0_cond2
  have h : (i 1).val < 4 := (i 1).isLt
  generalize (i 1).val = n at h ⊢
  have hn : n = 0 ∨ n = 1 ∨ n = 2 ∨ n = 3 := by omega
  rcases hn with rfl | rfl | rfl | rfl <;> decide

/-! ## What the body finds in the buffers -/

/-- The input's current staging buffer holds its block at every point. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)

/-- Where j > 0 the row-maximum buffer holds what the body left at the point before: the point is not the first
    and the buffer was not written back in between. -/
theorem before0_1_next (c : Dev nD) (t : Fin cfg0.N) (h0 : ¬t.val % 4 = 0) (d) :
    (dat0 V c).before 1 t d = accAt V c (t.val - 1) (Nat.lt_of_le_of_lt (Nat.sub_le _ _) t.isLt) := by
  have hN : t.val < 16 := lt_of_lt_of_eq t.isLt (show cfg0.N = 16 from N_0)
  rw [Dat.before_out_kept _ 1 rfl t (by omega) (Bool.eq_false_iff.mpr fun h => by have := (flush0_1 _).mp h; dsimp only at this; omega)
    live0_1 (fun _ _ => rfl)]
  dsimp only [dat0]

/-! ## The body's two triples -/

theorem coverA (p0 : Vec F S128x256 .f32) (y : S128x256.Idx) :
    ∃ pc ∈ ([⟨rA, p0⟩] : List (View.Piece (Elt F) S128x256 .f32)), y ∈ pc.1.set :=
  View.cover_of_tiled [⟨rA, p0⟩] S128x256.size (by rfl) y
theorem coverP (p0 : Vec F S1x128x256 .f32) (y : S1x128x256.Idx) :
    ∃ pc ∈ ([⟨rP, p0⟩] : List (View.Piece (Elt F) S1x128x256 .f32)), y ∈ pc.1.set :=
  View.cover_of_tiled [⟨rP, p0⟩] S1x128x256.size (by rfl) y

set_option maxHeartbeats 1000000 in
/-- Where j = 0: from the input's buffer at `x0` and the two outputs' at anything, the body ends with the input's
    unchanged, the row-maximum buffer at `accFirst x0` and the partial buffer at `partOf x0`. -/
theorem sound_kernel0_first (c : Dev nD) (E : Set ℕ) (i : grid0.Coords) (h1 : k0_cond1 i = 1#1) (h2 : ¬k0_cond2 i = 1#1)
    (arg2 : Memref sig .tc .vmem S128x128x256 .f32) (harg2 : arg2.IsWhole) (arg3 : Memref sig .tc .vmem S128x256 .f32) (harg3 : arg3.IsWhole)
    (arg4 : Memref sig .tc .vmem S1x128x256 .f32) (harg4 : arg4.IsWhole)
    (x0 : Vec F S128x128x256 .f32) (K : PUnit → sProp 𝕄) :
    iprop(owns (c : Thread nD τ) arg2 fullShare x0 ∗ (∃ d, owns (c : Thread nD τ) arg3 fullShare d) ∗ (∃ d, owns (c : Thread nD τ) arg4 fullShare d)
        ∗ (iprop(owns (c : Thread nD τ) arg2 fullShare x0 ∗ owns (c : Thread nD τ) arg3 fullShare (accFirst x0)
            ∗ owns (c : Thread nD τ) arg4 fullShare (partOf x0)) -∗ K ⟨⟩))
      ⊢ wp frame (wpE (defs₀ (F := F)) Variants.none c none) E (cc0__pool_fused_kernel i arg2 harg2 arg3 harg3 arg4 harg4) K := by
  simp only [cc0__pool_fused_kernel_eq_skeleton]; unfold cc0__pool_fused_kernel_skel
  unfold owns
  iintro ⟨⟨%f0, %hf0, H0⟩, ⟨%d1, %f1, -, H1⟩, ⟨%d2, %f2, -, H2⟩, Hk⟩
  subst hf0
  sl_exec (disch := first | exact h1 | exact h2)
  sl_step
  iapply Hk
  isplitl [H0]
  · iexists f0; isplitr; · ipureintro; rfl
    iexact H0
  isplitl [H1]
  · iexists _; isplitr
    swap; · iexact H1
    ipureintro
    exact View.read_writes_eq_canon _ _ _ (coverA _)
  iexists _; isplitr
  swap; · iexact H2
  ipureintro
  exact View.read_writes_eq_canon _ _ _ (coverP _)

set_option maxHeartbeats 1000000 in
/-- Where j > 0: from the input's buffer at `x0`, the row-maximum buffer at `acc` and the partial buffer at anything,
    the body ends with the input's unchanged, the row-maximum buffer at `accNext x0 acc` and the partial buffer at
    `partOf x0`. -/
theorem sound_kernel0_next (c : Dev nD) (E : Set ℕ) (i : grid0.Coords) (h1 : ¬k0_cond1 i = 1#1) (h2 : k0_cond2 i = 1#1)
    (arg2 : Memref sig .tc .vmem S128x128x256 .f32) (harg2 : arg2.IsWhole) (arg3 : Memref sig .tc .vmem S128x256 .f32) (harg3 : arg3.IsWhole)
    (arg4 : Memref sig .tc .vmem S1x128x256 .f32) (harg4 : arg4.IsWhole)
    (x0 : Vec F S128x128x256 .f32) (acc : Vec F S128x256 .f32) (K : PUnit → sProp 𝕄) :
    iprop(owns (c : Thread nD τ) arg2 fullShare x0 ∗ owns (c : Thread nD τ) arg3 fullShare acc ∗ (∃ d, owns (c : Thread nD τ) arg4 fullShare d)
        ∗ (iprop(owns (c : Thread nD τ) arg2 fullShare x0 ∗ owns (c : Thread nD τ) arg3 fullShare (accNext x0 acc)
            ∗ owns (c : Thread nD τ) arg4 fullShare (partOf x0)) -∗ K ⟨⟩))
      ⊢ wp frame (wpE (defs₀ (F := F)) Variants.none c none) E (cc0__pool_fused_kernel i arg2 harg2 arg3 harg3 arg4 harg4) K := by
  simp only [cc0__pool_fused_kernel_eq_skeleton]; unfold cc0__pool_fused_kernel_skel
  unfold owns
  iintro ⟨⟨%f0, %hf0, H0⟩, ⟨%f1, %hf1, H1⟩, ⟨%d2, %f2, -, H2⟩, Hk⟩
  subst hf0; subst hf1
  sl_exec (disch := first | exact h1 | exact h2)
  sl_step
  iapply Hk
  isplitl [H0]
  · iexists f0; isplitr; · ipureintro; rfl
    iexact H0
  isplitl [H1]
  · iexists _; isplitr
    swap; · iexact H1
    ipureintro
    exact View.read_writes_eq_canon _ _ _ (coverA _)
  iexists _; isplitr
  swap; · iexact H2
  ipureintro
  exact View.read_writes_eq_canon _ _ _ (coverP _)

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns (the row-maximum window's part stated as the library states it, by cases on idleness). -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ (dat0 V c).leavesExact 1 t
    ∗ owns (c : Thread nD τ) (st0_2 t) fullShare ((dat0 V c).after 2 t))

theorem leaves0_1 (c : Dev nD) (t : Fin cfg0.N) :
    (dat0 V c).leavesExact 1 t = (owns (c : Thread nD τ) (st0_1 t) fullShare ((dat0 V c).after 1 t) : sProp 𝕄) := by
  unfold Dat.leavesExact; rw [live0_1]

set_option maxHeartbeats 800000 in
/-- The body at any point: by cases on j = 0. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    leaves0_1, after0_0, after0_1, after0_2]
  by_cases h0 : t.val % 4 = 0
  · rw [accAt_first V c t h0]
    iintro ⟨HΦ, Ho, ⟨%d0, H0⟩, ⟨%d1, H1⟩, ⟨%d2, H2⟩⟩
    iapply (sound_kernel0_first c Set.univ (grid0.coords t) ((hcond1 t).mpr h0) (fun h => (hcond2 t).mp h h0) _ _ _ _ _ _ (iblk0 V c 0 t) _)
    isplitl [H0]; · iexact H0
    isplitl [H1]; · iexists _; iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [accAt_next V c t h0]
    simp only [before0_1_next V c t h0]
    iintro ⟨HΦ, Ho, ⟨%d0, H0⟩, ⟨%d1, H1⟩, ⟨%d2, H2⟩⟩
    iapply (sound_kernel0_next c Set.univ (grid0.coords t) (fun h => h0 ((hcond1 t).mp h)) ((hcond2 t).mpr h0) _ _ _ _ _ _ (iblk0 V c 0 t) _ _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Body1B.lean ====
/-
  The second call's body at a grid point: it loads its three input blocks p (64 x 256), q (128 x 256), b (256)
  whole, and stores p[t, g] + q[s, g] + b[g] over the whole 64 x 128 x 256 output buffer; so from the inputs'
  buffers at their blocks it ends with them unchanged and the output buffer at `sumOf` of the three blocks.
-/
import proofs.«104515_j28578712388215_2_alg».proof.Proof.DataB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in the input buffers -/

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-! ## The body's triple -/

/-- The one store covers the output buffer. -/
theorem cover1_3 (p0 : Vec F S64x128x256 .f32) (y : S64x128x256.Idx) :
    ∃ pc ∈ ([⟨rO, p0⟩] : List (View.Piece (Elt F) S64x128x256 .f32)), y ∈ pc.1.set :=
  View.cover_of_tiled [⟨rO, p0⟩] S64x128x256.size (by rfl) y

set_option maxHeartbeats 1000000 in
/-- On whole staging memrefs, the inputs' at contents `x0 x1 x2` and the output's at anything, the body runs to the
    continuation holding the inputs' as they were and the output's at `sumOf x0 x1 x2`. -/
theorem sound_kernel1 (c : Dev nD) (E : Set ℕ) (i : grid1.Coords)
    (arg2 : Memref sig .tc .vmem S64x256 .f32) (harg2 : arg2.IsWhole) (arg3 : Memref sig .tc .vmem S128x256 .f32) (harg3 : arg3.IsWhole)
    (arg4 : Memref sig .tc .vmem S256 .f32) (harg4 : arg4.IsWhole) (arg5 : Memref sig .tc .vmem S64x128x256 .f32) (harg5 : arg5.IsWhole)
    (x0 : Vec F S64x256 .f32) (x1 : Vec F S128x256 .f32) (x2 : Vec F S256 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (sumOf x0 x1 x2)) -∗ K ⟨⟩))
      ⊢ wp frame (wpE (defs₀ (F := F)) Variants.none c none) E (cc1__final_kernel i arg2 harg2 arg3 harg3 arg4 harg4 arg5 harg5) K := by
  simp only [cc1__final_kernel_eq_skeleton]; unfold cc1__final_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.RunB.lean ====
/-
  The whole program as a run of four segments — the two slices, the first call, the host operations between the
  calls, the second call — from the launch to the return: every unscoped buffer ends at the contents the boundaries'
  fold names (`W4`), and the three argument arrays, which no host operation writes and no call changes, end as
  launched.
-/
import proofs.«104515_j28578712388215_2_alg».proof.Proof.Body0B
import proofs.«104515_j28578712388215_2_alg».proof.Proof.Body1B

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## No host operation writes an argument -/

theorem writes0 : (hostOps0 : List (HloOp τ sig (Elt F))).Forall fun op => op.writes ⊆ (([main_v0, main_v1] : List (Ref sig .tc)).map (Proc.devRef (τ := τ) .tc)).toFinset := by
  simp only [List.Forall]; exact ⟨by simp only [StableHlo.unary_writes, Finset.singleton_subset_iff, List.mem_toFinset]; exact List.mem_map_of_mem (by decide), by simp only [StableHlo.unary_writes, Finset.singleton_subset_iff, List.mem_toFinset]; exact List.mem_map_of_mem (by decide)⟩
theorem writes1 : (hostOps1 : List (HloOp τ sig (Elt F))).Forall fun op => op.writes ⊆ (([main_cst, main_v3, main_v4, main_v5] : List (Ref sig .tc)).map (Proc.devRef (τ := τ) .tc)).toFinset := by
  simp only [List.Forall]; exact ⟨by simp only [StableHlo.nullary_writes, Finset.singleton_subset_iff, List.mem_toFinset]; exact List.mem_map_of_mem (by decide), by simp only [StableHlo.binary_writes, Finset.singleton_subset_iff, List.mem_toFinset]; exact List.mem_map_of_mem (by decide), by simp only [StableHlo.binary_writes, Finset.singleton_subset_iff, List.mem_toFinset]; exact List.mem_map_of_mem (by decide), by simp only [StableHlo.binary_writes, Finset.singleton_subset_iff, List.mem_toFinset]; exact List.mem_map_of_mem (by decide)⟩

/-- A buffer the slices do not write is, after them, as before. -/
theorem W1_keep (c : Dev nD) (r : Ref sig .tc) (h : r ∉ ([main_v0, main_v1] : List (Ref sig .tc))) : W1 m ρ c r = W0 m ρ c r :=
  StableHlo.after_of_writes_sub hostOps0 _ writes0 h
/-- A buffer the host operations between the calls do not write is, after them, as before. -/
theorem W3_keep (c : Dev nD) (r : Ref sig .tc) (h : r ∉ ([main_cst, main_v3, main_v4, main_v5] : List (Ref sig .tc))) : W3 m ρ c r = W2 m ρ c r :=
  StableHlo.after_of_writes_sub hostOps1 _ writes1 h

/-- The first argument is the first call's input: it reaches the end as launched. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_keep m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_keep m ρ c main_arg0 (by decide)
    _ = m ((c : Thread nD τ).loc main_arg0) := rfl
/-- The second argument is no window's array. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_keep m ρ c main_arg1 (by decide)
    _ = W1 m ρ c (Proc.devRef .tc main_arg1) := W2_of_ne m ρ c main_arg1 (by decide)
    _ = W0 m ρ c (Proc.devRef .tc main_arg1) := W1_keep m ρ c main_arg1 (by decide)
    _ = m ((c : Thread nD τ).loc main_arg1) := rfl
/-- The third argument is the second call's third input. -/
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := (W4_arr m ρ c 2).trans (((dat1 (V3 m ρ) c).arrAt_in 2 rfl _).trans (A_eq1 (V3 m ρ) c 2))
    _ = W2 m ρ c (Proc.devRef .tc main_arg2) := W3_keep m ρ c main_arg2 (by decide)
    _ = W1 m ρ c (Proc.devRef .tc main_arg2) := W2_of_ne m ρ c main_arg2 (by decide)
    _ = W0 m ρ c (Proc.devRef .tc main_arg2) := W1_keep m ρ c main_arg2 (by decide)
    _ = m ((c : Thread nD τ).loc main_arg2) := rfl

/-! ## The proof data family and the thread state -/

/-- Neither call has a prefetched table. -/
abbrev adm : (p : Fin 2) → (pcfgs (F := F) p).Adm := fun p => (cfgs p).toPCfg_adm
/-- Each call's proof data, at its entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment over the unscoped buffers. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem fresh0 : (hostOps0 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor
/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W4 m ρ c) ∗ ∃ r, prngReg c r)

/-! ## The calls as segments -/

set_option backward.isDefEq.respectTransparency.types false in
/-- The first call over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call over the thread state: entered from every unscoped buffer at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The four segments in order. -/
abbrev segs : List (Pipeline.Seg (pcfgs (F := F)) adm (pdats m ρ) () defs₀ 𝒱₀ L lv) :=
  [ .host (hseg hostOps0 hostOps0_sub fresh0 (W0 m ρ)),
    .region (reg0 m ρ),
    .host (hseg hostOps1 hostOps1_sub fresh1 (W2 m ρ)),
    .region (reg1 m ρ) ]
/-- The program is the run of the segments. -/
theorem main_run (c : Dev nD) : main (F := F) c = Pipeline.Seg.run (segs m ρ) := (main_chain c).trans (by chain_rfl)

set_option backward.isDefEq.respectTransparency.types false in
/-- From any memory with zero counters every weakly fair execution of the program terminates, nothing faulting,
    and every final state has every unscoped buffer of every core at `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The frame: the program runs to the end, nothing faulting, and the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_all m ρ)

end Cert.Kernel.Hand

end
-- ==== Proof.DataI.lean ====
/-
  What the two kernels leave behind, as data: for each of the two pipelined calls, every window's block of its
  array at a grid point, what the body's stores leave in each output's staging buffer there, and the contents of
  every buffer at the boundaries between the host operations and the calls.

  First call (grid 4 x 4, point t = 4 i + j): the input block is x[128 i .. , 128 j .. , :]; the body stores the
  block's maximum over its 128 columns into the row-maximum buffer when j = 0 and the maximum of that buffer and
  the block's column-maximum when j > 0 (the buffer is written back after j = 3), and stores the block's maximum
  over its 128 rows into the partial buffer (written back at every point).
  Second call (grid 8 x 4): the body stores p[t, g] + q[s, g] + b[g] over a 64 x 128 x 256 block.
-/
import proofs.«104515_j28578712388215_2_alg».proof.Proof.Gen.KernelIdeal.Launch
import proofs.«104515_j28578712388215_2_alg».proof.Proof.Gen.KernelIdeal.Skeleton
import proofs.«104515_j28578712388215_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Regions
-- the buffer contents when a call is entered: the parameter each call's half is stated at
variable (V : (c : Dev nD) → (b : Ref sig .tc) → Buf (Elt F) ((c : Thread nD τ).loc b))

/-! # The first call -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles the body reads and writes through. -/
abbrev rX : Rect S128x128x256 := Rect.unit (s := S128x128x256) ![0, 0, 0] S128x128x256.size inb_S128x128x256_S128x128x256_0_0_0
abbrev rA : Rect S128x256 := Rect.unit (s := S128x256) ![0, 0] S128x256.size inb_S128x256_S128x256_0_0
abbrev rP : Rect S1x128x256 := Rect.unit (s := S1x128x256) ![0, 0, 0] S1x128x256.size inb_S1x128x256_S1x128x256_0_0_0

/-- The row-maximum buffer after the body at a point with j = 0: the input block's maximum over its columns. -/
def accFirst (x0 : Vec F S128x128x256 .f32) : Vec F S128x256 .f32 :=
  View.canon [⟨rA, k0_pay1 (View.ld x0 rX)⟩]

/-- The row-maximum buffer after the body at a point with j > 0: the maximum of what it held and the block's. -/
def accNext (x0 : Vec F S128x128x256 .f32) (acc : Vec F S128x256 .f32) : Vec F S128x256 .f32 :=
  View.canon [⟨rA, k0_pay2 (View.ld acc rA) (View.ld x0 rX)⟩]

/-- The partial buffer after the body: the input block's maximum over its rows. -/
def partOf (x0 : Vec F S128x128x256 .f32) : Vec F S1x128x256 .f32 :=
  View.canon [⟨rP, k0_pay3 (View.ld x0 rX)⟩]

/-- What the row-maximum buffer holds after the body at position `n`: started afresh where j = 0, else carried
    over from the point before (the buffer is not written back in between). -/
def accAt (c : Dev nD) : (n : ℕ) → n < cfg0.N → Vec F S128x256 .f32
  | 0, hn => accFirst (iblk0 V c 0 ⟨0, hn⟩)
  | n + 1, hn =>
    if (n + 1) % 4 = 0 then accFirst (iblk0 V c 0 ⟨n + 1, hn⟩)
    else accNext (iblk0 V c 0 ⟨n + 1, hn⟩) (accAt c n (Nat.lt_of_succ_lt hn))

theorem accAt_first (c : Dev nD) (t : Fin cfg0.N) (h0 : t.val % 4 = 0) :
    accAt V c t.val t.isLt = accFirst (iblk0 V c 0 t) := by
  obtain ⟨n, hn⟩ := t
  cases n with
  | zero => exact rfl
  | succ n => exact (if_pos h0).trans rfl

theorem accAt_next (c : Dev nD) (t : Fin cfg0.N) (h0 : ¬t.val % 4 = 0) :
    accAt V c t.val t.isLt = accNext (iblk0 V c 0 t) (accAt V c (t.val - 1) (Nat.lt_of_le_of_lt (Nat.sub_le _ _) t.isLt)) := by
  obtain ⟨n, hn⟩ := t
  cases n with
  | zero => exact absurd (Nat.zero_mod _) h0
  | succ n => exact (if_neg h0).trans rfl

/-- The proof data of the first call on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => accAt V c t.val t.isLt
    | ⟨2, _⟩ => partOf (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = accAt V c t.val t.isLt := by dsimp only [dat0]
theorem after0_2 (c : Dev nD) (t : Fin cfg0.N) : (dat0 V c).after 2 t = partOf (iblk0 V c 0 t) := by dsimp only [dat0]

/-! # The second call -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rS : Rect S64x256 := Rect.unit (s := S64x256) ![0, 0] S64x256.size inb_S64x256_S64x256_0_0
abbrev rT : Rect S128x256 := Rect.unit (s := S128x256) ![0, 0] S128x256.size inb_S128x256_S128x256_0_0
abbrev rB : Rect S256 := Rect.unit (s := S256) ![0] S256.size inb_S256_S256_0
abbrev rO : Rect S64x128x256 := Rect.unit (s := S64x128x256) ![0, 0, 0] S64x128x256.size inb_S64x128x256_S64x128x256_0_0_0

/-- The output buffer after the body: the sum of the three input blocks, spread over the block. -/
def sumOf (x0 : Vec F S64x256 .f32) (x1 : Vec F S128x256 .f32) (x2 : Vec F S256 .f32) : Vec F S64x128x256 .f32 :=
  View.canon [⟨rO, k1_pay1 (View.ld x0 rS) (View.ld x1 rT) (View.ld x2 rB)⟩]

/-- The proof data of the second call on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => sumOf (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = sumOf (iblk1 V c 0 t) (iblk1 V c 1 t) (iblk1 V c 2 t) := by dsimp only [dat1]

end Regions

/-! # The buffer contents at each boundary -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the two slices (the first call's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first call's exit: its arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host operations between the calls (the second call's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second call's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

end Cert.KernelIdeal.Hand

end
-- ==== Proof.Body0I.lean ====
/-
  The first call's body at a grid point t = 4 i + j. Where j = 0 it stores the input block's maximum over its
  columns into the row-maximum buffer; where j > 0 it stores the maximum of what that buffer holds (what the point
  before left: the buffer is written back only after j = 3) and the block's column-maximum; at every point it
  stores the block's maximum over its rows into the partial buffer. Exactly one of the two branch conditions
  holds at each point, so the row-maximum buffer is stored into at every point.
-/
import proofs.«104515_j28578712388215_2_alg».proof.Proof.DataI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The branch conditions over the grid -/

/-- The first branch is taken exactly where j = 0, -/
theorem hcond1 : ∀ t : Fin cfg0.N, k0_cond1 (grid0.coords t) = 1#1 ↔ t.val % 4 = 0 :=
  (by decide +kernel : ∀ t : Fin grid0.N, k0_cond1 (grid0.coords t) = 1#1 ↔ t.val % 4 = 0)
/-- the second exactly where j > 0. -/
theorem hcond2 : ∀ t : Fin cfg0.N, k0_cond2 (grid0.coords t) = 1#1 ↔ ¬t.val % 4 = 0 :=
  (by decide +kernel : ∀ t : Fin grid0.N, k0_cond2 (grid0.coords t) = 1#1 ↔ ¬t.val % 4 = 0)

/-- One of the two branches stores into the row-maximum buffer whatever the coordinates: no point is idle for it. -/
theorem live0_1 : ∀ i : grid0.Coords, cfg0.idle 1 i = false := by
  intro i
  show (!(k0_cond1 i == 1#1) && !(k0_cond2 i == 1#1)) = false
  unfold k0_cond1 k0_cond2
  have h : (i 1).val < 4 := (i 1).isLt
  generalize (i 1).val = n at h ⊢
  have hn : n = 0 ∨ n = 1 ∨ n = 2 ∨ n = 3 := by omega
  rcases hn with rfl | rfl | rfl | rfl <;> decide

/-! ## What the body finds in the buffers -/

/-- The input's current staging buffer holds its block at every point. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)

/-- Where j > 0 the row-maximum buffer holds what the body left at the point before: the point is not the first
    and the buffer was not written back in between. -/
theorem before0_1_next (c : Dev nD) (t : Fin cfg0.N) (h0 : ¬t.val % 4 = 0) (d) :
    (dat0 V c).before 1 t d = accAt V c (t.val - 1) (Nat.lt_of_le_of_lt (Nat.sub_le _ _) t.isLt) := by
  have hN : t.val < 16 := lt_of_lt_of_eq t.isLt (show cfg0.N = 16 from N_0)
  rw [Dat.before_out_kept _ 1 rfl t (by omega) (Bool.eq_false_iff.mpr fun h => by have := (flush0_1 _).mp h; dsimp only at this; omega)
    live0_1 (fun _ _ => rfl)]
  dsimp only [dat0]

/-! ## The body's two triples -/

theorem coverA (p0 : Vec F S128x256 .f32) (y : S128x256.Idx) :
    ∃ pc ∈ ([⟨rA, p0⟩] : List (View.Piece (Elt F) S128x256 .f32)), y ∈ pc.1.set :=
  View.cover_of_tiled [⟨rA, p0⟩] S128x256.size (by rfl) y
theorem coverP (p0 : Vec F S1x128x256 .f32) (y : S1x128x256.Idx) :
    ∃ pc ∈ ([⟨rP, p0⟩] : List (View.Piece (Elt F) S1x128x256 .f32)), y ∈ pc.1.set :=
  View.cover_of_tiled [⟨rP, p0⟩] S1x128x256.size (by rfl) y

set_option maxHeartbeats 1000000 in
/-- Where j = 0: from the input's buffer at `x0` and the two outputs' at anything, the body ends with the input's
    unchanged, the row-maximum buffer at `accFirst x0` and the partial buffer at `partOf x0`. -/
theorem sound_kernel0_first (c : Dev nD) (E : Set ℕ) (i : grid0.Coords) (h1 : k0_cond1 i = 1#1) (h2 : ¬k0_cond2 i = 1#1)
    (arg2 : Memref sig .tc .vmem S128x128x256 .f32) (harg2 : arg2.IsWhole) (arg3 : Memref sig .tc .vmem S128x256 .f32) (harg3 : arg3.IsWhole)
    (arg4 : Memref sig .tc .vmem S1x128x256 .f32) (harg4 : arg4.IsWhole)
    (x0 : Vec F S128x128x256 .f32) (K : PUnit → sProp 𝕄) :
    iprop(owns (c : Thread nD τ) arg2 fullShare x0 ∗ (∃ d, owns (c : Thread nD τ) arg3 fullShare d) ∗ (∃ d, owns (c : Thread nD τ) arg4 fullShare d)
        ∗ (iprop(owns (c : Thread nD τ) arg2 fullShare x0 ∗ owns (c : Thread nD τ) arg3 fullShare (accFirst x0)
            ∗ owns (c : Thread nD τ) arg4 fullShare (partOf x0)) -∗ K ⟨⟩))
      ⊢ wp frame (wpE (defs₀ (F := F)) Variants.none c none) E (cc0__pool_fused_kernel i arg2 harg2 arg3 harg3 arg4 harg4) K := by
  simp only [cc0__pool_fused_kernel_eq_skeleton]; unfold cc0__pool_fused_kernel_skel
  unfold owns
  iintro ⟨⟨%f0, %hf0, H0⟩, ⟨%d1, %f1, -, H1⟩, ⟨%d2, %f2, -, H2⟩, Hk⟩
  subst hf0
  sl_exec (disch := first | exact h1 | exact h2)
  sl_step
  iapply Hk
  isplitl [H0]
  · iexists f0; isplitr; · ipureintro; rfl
    iexact H0
  isplitl [H1]
  · iexists _; isplitr
    swap; · iexact H1
    ipureintro
    exact View.read_writes_eq_canon _ _ _ (coverA _)
  iexists _; isplitr
  swap; · iexact H2
  ipureintro
  exact View.read_writes_eq_canon _ _ _ (coverP _)

set_option maxHeartbeats 1000000 in
/-- Where j > 0: from the input's buffer at `x0`, the row-maximum buffer at `acc` and the partial buffer at anything,
    the body ends with the input's unchanged, the row-maximum buffer at `accNext x0 acc` and the partial buffer at
    `partOf x0`. -/
theorem sound_kernel0_next (c : Dev nD) (E : Set ℕ) (i : grid0.Coords) (h1 : ¬k0_cond1 i = 1#1) (h2 : k0_cond2 i = 1#1)
    (arg2 : Memref sig .tc .vmem S128x128x256 .f32) (harg2 : arg2.IsWhole) (arg3 : Memref sig .tc .vmem S128x256 .f32) (harg3 : arg3.IsWhole)
    (arg4 : Memref sig .tc .vmem S1x128x256 .f32) (harg4 : arg4.IsWhole)
    (x0 : Vec F S128x128x256 .f32) (acc : Vec F S128x256 .f32) (K : PUnit → sProp 𝕄) :
    iprop(owns (c : Thread nD τ) arg2 fullShare x0 ∗ owns (c : Thread nD τ) arg3 fullShare acc ∗ (∃ d, owns (c : Thread nD τ) arg4 fullShare d)
        ∗ (iprop(owns (c : Thread nD τ) arg2 fullShare x0 ∗ owns (c : Thread nD τ) arg3 fullShare (accNext x0 acc)
            ∗ owns (c : Thread nD τ) arg4 fullShare (partOf x0)) -∗ K ⟨⟩))
      ⊢ wp frame (wpE (defs₀ (F := F)) Variants.none c none) E (cc0__pool_fused_kernel i arg2 harg2 arg3 harg3 arg4 harg4) K := by
  simp only [cc0__pool_fused_kernel_eq_skeleton]; unfold cc0__pool_fused_kernel_skel
  unfold owns
  iintro ⟨⟨%f0, %hf0, H0⟩, ⟨%f1, %hf1, H1⟩, ⟨%d2, %f2, -, H2⟩, Hk⟩
  subst hf0; subst hf1
  sl_exec (disch := first | exact h1 | exact h2)
  sl_step
  iapply Hk
  isplitl [H0]
  · iexists f0; isplitr; · ipureintro; rfl
    iexact H0
  isplitl [H1]
  · iexists _; isplitr
    swap; · iexact H1
    ipureintro
    exact View.read_writes_eq_canon _ _ _ (coverA _)
  iexists _; isplitr
  swap; · iexact H2
  ipureintro
  exact View.read_writes_eq_canon _ _ _ (coverP _)

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns (the row-maximum window's part stated as the library states it, by cases on idleness). -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ (dat0 V c).leavesExact 1 t
    ∗ owns (c : Thread nD τ) (st0_2 t) fullShare ((dat0 V c).after 2 t))

theorem leaves0_1 (c : Dev nD) (t : Fin cfg0.N) :
    (dat0 V c).leavesExact 1 t = (owns (c : Thread nD τ) (st0_1 t) fullShare ((dat0 V c).after 1 t) : sProp 𝕄) := by
  unfold Dat.leavesExact; rw [live0_1]

set_option maxHeartbeats 800000 in
/-- The body at any point: by cases on j = 0. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    leaves0_1, after0_0, after0_1, after0_2]
  by_cases h0 : t.val % 4 = 0
  · rw [accAt_first V c t h0]
    iintro ⟨HΦ, Ho, ⟨%d0, H0⟩, ⟨%d1, H1⟩, ⟨%d2, H2⟩⟩
    iapply (sound_kernel0_first c Set.univ (grid0.coords t) ((hcond1 t).mpr h0) (fun h => (hcond2 t).mp h h0) _ _ _ _ _ _ (iblk0 V c 0 t) _)
    isplitl [H0]; · iexact H0
    isplitl [H1]; · iexists _; iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [accAt_next V c t h0]
    simp only [before0_1_next V c t h0]
    iintro ⟨HΦ, Ho, ⟨%d0, H0⟩, ⟨%d1, H1⟩, ⟨%d2, H2⟩⟩
    iapply (sound_kernel0_next c Set.univ (grid0.coords t) (fun h => h0 ((hcond1 t).mp h)) ((hcond2 t).mpr h0) _ _ _ _ _ _ (iblk0 V c 0 t) _ _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Body1I.lean ====
/-
  The second call's body at a grid point: it loads its three input blocks p (64 x 256), q (128 x 256), b (256)
  whole, and stores p[t, g] + q[s, g] + b[g] over the whole 64 x 128 x 256 output buffer; so from the inputs'
  buffers at their blocks it ends with them unchanged and the output buffer at `sumOf` of the three blocks.
-/
import proofs.«104515_j28578712388215_2_alg».proof.Proof.DataI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in the input buffers -/

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-! ## The body's triple -/

/-- The one store covers the output buffer. -/
theorem cover1_3 (p0 : Vec F S64x128x256 .f32) (y : S64x128x256.Idx) :
    ∃ pc ∈ ([⟨rO, p0⟩] : List (View.Piece (Elt F) S64x128x256 .f32)), y ∈ pc.1.set :=
  View.cover_of_tiled [⟨rO, p0⟩] S64x128x256.size (by rfl) y

set_option maxHeartbeats 1000000 in
/-- On whole staging memrefs, the inputs' at contents `x0 x1 x2` and the output's at anything, the body runs to the
    continuation holding the inputs' as they were and the output's at `sumOf x0 x1 x2`. -/
theorem sound_kernel1 (c : Dev nD) (E : Set ℕ) (i : grid1.Coords)
    (arg2 : Memref sig .tc .vmem S64x256 .f32) (harg2 : arg2.IsWhole) (arg3 : Memref sig .tc .vmem S128x256 .f32) (harg3 : arg3.IsWhole)
    (arg4 : Memref sig .tc .vmem S256 .f32) (harg4 : arg4.IsWhole) (arg5 : Memref sig .tc .vmem S64x128x256 .f32) (harg5 : arg5.IsWhole)
    (x0 : Vec F S64x256 .f32) (x1 : Vec F S128x256 .f32) (x2 : Vec F S256 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (sumOf x0 x1 x2)) -∗ K ⟨⟩))
      ⊢ wp frame (wpE (defs₀ (F := F)) Variants.none c none) E (cc1__final_kernel i arg2 harg2 arg3 harg3 arg4 harg4 arg5 harg5) K := by
  simp only [cc1__final_kernel_eq_skeleton]; unfold cc1__final_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.RunI.lean ====
/-
  The whole program as a run of four segments — the two slices, the first call, the host operations between the
  calls, the second call — from the launch to the return: every unscoped buffer ends at the contents the boundaries'
  fold names (`W4`), and the three argument arrays, which no host operation writes and no call changes, end as
  launched.
-/
import proofs.«104515_j28578712388215_2_alg».proof.Proof.Body0I
import proofs.«104515_j28578712388215_2_alg».proof.Proof.Body1I

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## No host operation writes an argument -/

theorem writes0 : (hostOps0 : List (HloOp τ sig (Elt F))).Forall fun op => op.writes ⊆ (([main_v0, main_v1] : List (Ref sig .tc)).map (Proc.devRef (τ := τ) .tc)).toFinset := by
  simp only [List.Forall]; exact ⟨by simp only [StableHlo.unary_writes, Finset.singleton_subset_iff, List.mem_toFinset]; exact List.mem_map_of_mem (by decide), by simp only [StableHlo.unary_writes, Finset.singleton_subset_iff, List.mem_toFinset]; exact List.mem_map_of_mem (by decide)⟩
theorem writes1 : (hostOps1 : List (HloOp τ sig (Elt F))).Forall fun op => op.writes ⊆ (([main_cst, main_v3, main_v4, main_v5] : List (Ref sig .tc)).map (Proc.devRef (τ := τ) .tc)).toFinset := by
  simp only [List.Forall]; exact ⟨by simp only [StableHlo.nullary_writes, Finset.singleton_subset_iff, List.mem_toFinset]; exact List.mem_map_of_mem (by decide), by simp only [StableHlo.binary_writes, Finset.singleton_subset_iff, List.mem_toFinset]; exact List.mem_map_of_mem (by decide), by simp only [StableHlo.binary_writes, Finset.singleton_subset_iff, List.mem_toFinset]; exact List.mem_map_of_mem (by decide), by simp only [StableHlo.binary_writes, Finset.singleton_subset_iff, List.mem_toFinset]; exact List.mem_map_of_mem (by decide)⟩

/-- A buffer the slices do not write is, after them, as before. -/
theorem W1_keep (c : Dev nD) (r : Ref sig .tc) (h : r ∉ ([main_v0, main_v1] : List (Ref sig .tc))) : W1 m ρ c r = W0 m ρ c r :=
  StableHlo.after_of_writes_sub hostOps0 _ writes0 h
/-- A buffer the host operations between the calls do not write is, after them, as before. -/
theorem W3_keep (c : Dev nD) (r : Ref sig .tc) (h : r ∉ ([main_cst, main_v3, main_v4, main_v5] : List (Ref sig .tc))) : W3 m ρ c r = W2 m ρ c r :=
  StableHlo.after_of_writes_sub hostOps1 _ writes1 h

/-- The first argument is the first call's input: it reaches the end as launched. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_keep m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_keep m ρ c main_arg0 (by decide)
    _ = m ((c : Thread nD τ).loc main_arg0) := rfl
/-- The second argument is no window's array. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_keep m ρ c main_arg1 (by decide)
    _ = W1 m ρ c (Proc.devRef .tc main_arg1) := W2_of_ne m ρ c main_arg1 (by decide)
    _ = W0 m ρ c (Proc.devRef .tc main_arg1) := W1_keep m ρ c main_arg1 (by decide)
    _ = m ((c : Thread nD τ).loc main_arg1) := rfl
/-- The third argument is the second call's third input. -/
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := (W4_arr m ρ c 2).trans (((dat1 (V3 m ρ) c).arrAt_in 2 rfl _).trans (A_eq1 (V3 m ρ) c 2))
    _ = W2 m ρ c (Proc.devRef .tc main_arg2) := W3_keep m ρ c main_arg2 (by decide)
    _ = W1 m ρ c (Proc.devRef .tc main_arg2) := W2_of_ne m ρ c main_arg2 (by decide)
    _ = W0 m ρ c (Proc.devRef .tc main_arg2) := W1_keep m ρ c main_arg2 (by decide)
    _ = m ((c : Thread nD τ).loc main_arg2) := rfl

/-! ## The proof data family and the thread state -/

/-- Neither call has a prefetched table. -/
abbrev adm : (p : Fin 2) → (pcfgs (F := F) p).Adm := fun p => (cfgs p).toPCfg_adm
/-- Each call's proof data, at its entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment over the unscoped buffers. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem fresh0 : (hostOps0 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor
/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W4 m ρ c) ∗ ∃ r, prngReg c r)

/-! ## The calls as segments -/

set_option backward.isDefEq.respectTransparency.types false in
/-- The first call over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call over the thread state: entered from every unscoped buffer at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The four segments in order. -/
abbrev segs : List (Pipeline.Seg (pcfgs (F := F)) adm (pdats m ρ) () defs₀ 𝒱₀ L lv) :=
  [ .host (hseg hostOps0 hostOps0_sub fresh0 (W0 m ρ)),
    .region (reg0 m ρ),
    .host (hseg hostOps1 hostOps1_sub fresh1 (W2 m ρ)),
    .region (reg1 m ρ) ]
/-- The program is the run of the segments. -/
theorem main_run (c : Dev nD) : main (F := F) c = Pipeline.Seg.run (segs m ρ) := (main_chain c).trans (by chain_rfl)

set_option backward.isDefEq.respectTransparency.types false in
/-- From any memory with zero counters every weakly fair execution of the program terminates, nothing faulting,
    and every final state has every unscoped buffer of every core at `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The frame: the program runs to the end, nothing faulting, and the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_all m ρ)

end Cert.KernelIdeal.Hand

end
-- ==== Proof.Spec.lean ====
/-
  What both programs compute, as one function of the three argument arrays, index by index on the extended reals.

  x : [512, 512, 256] (rows t, columns s, features f), w : [256, 512], b : [256].
  sPool x t f  = the maximum over s of x[t, s, f]   (from the pattern of minus infinity)
  tPool x s f  = the maximum over t of x[t, s, f]
  out[t, s, g] = (sum over f of sPool x t f * w[g, f]) + (sum over f of tPool x s f * w[g, 256 + f]) + b[g].
-/
import Idealize.ShloMosaic.PureOps.Ideal
import Idealize.ShloMosaic.Lib.ValueIdx

noncomputable section

namespace Cert.Spec

open Idealize.ShloMosaic Idealize.ShloMosaic.ValueIdx

/-- The shapes of the arguments, as literals. -/
abbrev X : Shape := ⟨3, ![512, 512, 256]⟩
abbrev Wt : Shape := ⟨2, ![256, 512]⟩
abbrev B : Shape := ⟨1, ![256]⟩

/-- The value a maximum starts from: the pattern of minus infinity, kept as its word. -/
def start : EReal := Ideal.ofBits .f32 0xFF800000#32

/-- The maximum over the column axis s of x[t, s, f]. -/
def sPool (x : X.Idx → EReal) (t : Fin 512) (f : Fin 256) : EReal :=
  Finset.univ.fold max start (fun s : Fin 512 => x (ix3 t s f))

/-- The maximum over the row axis t of x[t, s, f]. -/
def tPool (x : X.Idx → EReal) (s : Fin 512) (f : Fin 256) : EReal :=
  Finset.univ.fold max start (fun t : Fin 512 => x (ix3 t s f))

/-- The left half of row g of w, at feature f. -/
def wLeft (w : Wt.Idx → EReal) (g f : Fin 256) : EReal := w (ix2 g ⟨f.val, by omega⟩)

/-- The right half of row g of w, at feature f. -/
def wRight (w : Wt.Idx → EReal) (g f : Fin 256) : EReal := w (ix2 g ⟨256 + f.val, by omega⟩)

/-- The result at (t, s, g). -/
def out (x : X.Idx → EReal) (w : Wt.Idx → EReal) (b : B.Idx → EReal) (t s : Fin 512) (g : Fin 256) : EReal :=
  (∑ f : Fin 256, sPool x t f * wLeft w g f) + (∑ f : Fin 256, tPool x s f * wRight w g f) + b (ix1 g)

/-- The result array. -/
def G (x : X.Idx → EReal) (w : Wt.Idx → EReal) (b : B.Idx → EReal) : X.Idx → EReal :=
  fun i => out x w b (i 0) (i 1) (i 2)

end Cert.Spec

end
-- ==== Proof.RefReduce.lean ====
/-
  A maximum taken along one axis of a [512, 512, 256] array, read at an index of the [512, 256] result:
  the fold of max, from the initial value, over the coordinates of the dropped axis.
-/
import Idealize.ShloMosaic.PureOps.Ideal.Laws
import Idealize.ShloMosaic.Lib.ValueIdx

noncomputable section

namespace Cert.RefReduce

open Idealize.ShloMosaic Idealize.ShloMosaic.ValueIdx

/-- The source and result shapes of the two reductions. -/
abbrev S3 : Shape := ⟨3, ![512, 512, 256]⟩
abbrev S2 : Shape := ⟨2, ![512, 256]⟩

theorem red1 : S3.Reduces [1] S2 := by decide
theorem red0 : S3.Reduces [0] S2 := by decide

/-- Over the result index (t, f), the source index with s inserted on axis 1 is (t, s, f). -/
theorem lift1 (t : Fin 512) (f : Fin 256) (s : Fin 512) : red1.lift (ix2 t f) s = ix3 t s f := by
  funext c
  match c with
  | ⟨0, _⟩ => exact Fin.ext rfl
  | ⟨1, _⟩ => exact Fin.ext rfl
  | ⟨2, _⟩ => exact Fin.ext rfl

/-- Over the result index (s, f), the source index with t inserted on axis 0 is (t, s, f). -/
theorem lift0 (s : Fin 512) (f : Fin 256) (t : Fin 512) : red0.lift (ix2 s f) t = ix3 t s f := by
  funext c
  match c with
  | ⟨0, _⟩ => exact Fin.ext rfl
  | ⟨1, _⟩ => exact Fin.ext rfl
  | ⟨2, _⟩ => exact Fin.ext rfl

/-- The maximum along axis 1 (the columns s), of any array, from any initial value, at (t, f). -/
theorem reduce_max_axis1 {u : Shape} (x : FVec Ideal S3 .f32) (init : u.Idx → Ideal .f32) (h' : S3.ReducesTo [1] S2)
    (hu : 0 < u.numel) (t : Fin 512) (f : Fin 256) :
    Host.reduce FloatOps.maximumf x init h' hu (ix2 t f)
      = Finset.univ.fold max (init (Shape.Idx.first hu)) (fun s : Fin 512 => x (ix3 t s f)) := by
  have e : (x ∘ red1.lift (ix2 t f)) = (fun s : Fin 512 => x (ix3 t s f)) := funext fun s => congrArg x (lift1 t f s)
  refine (Host.reduce_eq_fold_single FloatOps.maximumf x init h' red1 hu (ix2 t f)).trans ?_
  exact congrArg (Finset.univ.fold max (init (Shape.Idx.first hu))) e

/-- The maximum along axis 0 (the rows t), of any array, from any initial value, at (s, f). -/
theorem reduce_max_axis0 {u : Shape} (x : FVec Ideal S3 .f32) (init : u.Idx → Ideal .f32) (h' : S3.ReducesTo [0] S2)
    (hu : 0 < u.numel) (s : Fin 512) (f : Fin 256) :
    Host.reduce FloatOps.maximumf x init h' hu (ix2 s f)
      = Finset.univ.fold max (init (Shape.Idx.first hu)) (fun t : Fin 512 => x (ix3 t s f)) := by
  have e : (x ∘ red0.lift (ix2 s f)) = (fun t : Fin 512 => x (ix3 t s f)) := funext fun t => congrArg x (lift0 s f t)
  refine (Host.reduce_eq_fold_single FloatOps.maximumf x init h' red0 hu (ix2 s f)).trans ?_
  exact congrArg (Finset.univ.fold max (init (Shape.Idx.first hu))) e

/-- The same along axis 0 of an array of any number n of rows: over the result index (s, f), the source index
    with q inserted on axis 0 is (q, s, f). -/
theorem liftRows {n : Nat} (h : (⟨3, ![n, 512, 256]⟩ : Shape).Reduces [0] S2) (s : Fin 512) (f : Fin 256) (q : Fin n) :
    h.lift (ix2 s f) q = ix3 q s f := by
  funext c
  match c with
  | ⟨0, _⟩ => exact Fin.ext rfl
  | ⟨1, _⟩ => exact Fin.ext rfl
  | ⟨2, _⟩ => exact Fin.ext rfl

/-- The maximum along axis 0 of an [n, 512, 256] array, from any initial value, at (s, f). -/
theorem reduce_max_rows {n : Nat} {u : Shape} (x : FVec Ideal ⟨3, ![n, 512, 256]⟩ .f32) (init : u.Idx → Ideal .f32)
    (h' : (⟨3, ![n, 512, 256]⟩ : Shape).ReducesTo [0] S2) (h : (⟨3, ![n, 512, 256]⟩ : Shape).Reduces [0] S2)
    (hu : 0 < u.numel) (s : Fin 512) (f : Fin 256) :
    Host.reduce FloatOps.maximumf x init h' hu (ix2 s f)
      = Finset.univ.fold max (init (Shape.Idx.first hu)) (fun q : Fin n => x (ix3 q s f)) := by
  have e : (x ∘ h.lift (ix2 s f)) = (fun q : Fin n => x (ix3 q s f)) := funext fun q => congrArg x (liftRows h s f q)
  refine (Host.reduce_eq_fold_single FloatOps.maximumf x init h' h hu (ix2 s f)).trans ?_
  exact congrArg (Finset.univ.fold max (init (Shape.Idx.first hu))) e

/-- At four rows the shape fact is decided. -/
theorem red0_4 : (⟨3, ![4, 512, 256]⟩ : Shape).Reduces [0] S2 := by decide

end Cert.RefReduce

end
-- ==== Proof.RefDot.lean ====
/-
  A product of a [512, 256] array with a [256, 256] array, both contracted on their second axis,
  read at an index (t, g) of the [512, 256] result: the sum over k of l[t, k] * r[g, k].
-/
import Idealize.ShloMosaic.PureOps.Ideal.Laws
import Idealize.ShloMosaic.Lib.ValueIdx

noncomputable section

namespace Cert.RefDot

open Idealize.ShloMosaic Idealize.ShloMosaic.ValueIdx

/-- The operand shapes. -/
abbrev SL : Shape := ⟨2, ![512, 256]⟩
abbrev SR : Shape := ⟨2, ![256, 256]⟩

/-- The dimension numbers: contract axis 1 of each operand, keep axis 0 of each, no batch axis. -/
abbrev D (wf : DotDims.WF SL SR SL [1] [1] [0] [0] [] []) : DotDims SL SR SL := ⟨[1], [1], [0], [0], [], [], wf⟩

variable (wf : DotDims.WF SL SR SL [1] [1] [0] [0] [] [])

theorem lhs_0 (i : SL.Idx) (q : (D wf).contr.Idx) : ((D wf).lhsIdx i q 0).val = (i 0).val := by
  unfold DotDims.lhsIdx
  rw [dif_neg (show ¬(0 : Fin SL.rank) ∈ (D wf).lhsBatch from List.not_mem_nil), dif_pos (show (0 : Fin SL.rank) ∈ (D wf).lhsNonContracting from List.mem_singleton.mpr rfl)]
  rfl
theorem lhs_1 (i : SL.Idx) (q : (D wf).contr.Idx) : ((D wf).lhsIdx i q 1).val = (q ⟨0, Nat.one_pos⟩).val :=
  (D wf).lhsIdx_val_of_single rfl i q
theorem rhs_0 (i : SL.Idx) (q : (D wf).contr.Idx) : ((D wf).rhsIdx i q 0).val = (i 1).val := by
  unfold DotDims.rhsIdx
  rw [dif_neg (show ¬(0 : Fin SR.rank) ∈ (D wf).rhsBatch from List.not_mem_nil), dif_pos (show (0 : Fin SR.rank) ∈ (D wf).rhsNonContracting from List.mem_singleton.mpr rfl)]
  rfl
theorem rhs_1 (i : SL.Idx) (q : (D wf).contr.Idx) : ((D wf).rhsIdx i q 1).val = (q ⟨0, Nat.one_pos⟩).val :=
  (D wf).rhsIdx_val_of_single rfl i q

/-- The product at (t, g), for any precision argument. -/
theorem dot_apply (prec : Option ContractPrecision) (l : FVec Ideal SL .f32) (r : FVec Ideal SR .f32) (t : Fin 512) (g : Fin 256) :
    Host.dotGeneral (D wf) prec l r (ix2 t g) = ∑ k : Fin 256, l (ix2 t k) * r (ix2 g k) := by
  simp only [Host.dotGeneral]
  rw [Ideal.dotGeneral_apply, ← Equiv.sum_comp (ValueIdx.contrEquiv1 (D wf) 256 rfl rfl).symm]
  refine Finset.sum_congr rfl fun k _ => ?_
  have hk := ValueIdx.contrEquiv1_symm_val (D wf) 256 rfl rfl k
  have el : (D wf).lhsIdx (ix2 t g) ((ValueIdx.contrEquiv1 (D wf) 256 rfl rfl).symm k) = ix2 t k := funext fun a => Fin.ext (by
    match a with
    | ⟨0, _⟩ => exact lhs_0 wf _ _
    | ⟨1, _⟩ => exact (lhs_1 wf _ _).trans hk)
  have er : (D wf).rhsIdx (ix2 t g) ((ValueIdx.contrEquiv1 (D wf) 256 rfl rfl).symm k) = ix2 g k := funext fun a => Fin.ext (by
    match a with
    | ⟨0, _⟩ => exact rhs_0 wf _ _
    | ⟨1, _⟩ => exact (rhs_1 wf _ _).trans hk)
  rw [el, er]

end Cert.RefDot

end
-- ==== Proof.RefValue.lean ====
/-
  The reference's result array, index by index on the extended reals, is the common specification:
  the two maxima are the two pools, the two slices the two halves of a row of w, each product the sum
  over the features, and the broadcasts place the first product at (t, g), the second at (s, g), the bias at g.
-/
import proofs.«104515_j28578712388215_2_alg».proof.Proof.Gen.ReferenceIdeal.Read
import proofs.«104515_j28578712388215_2_alg».proof.Proof.Spec
import proofs.«104515_j28578712388215_2_alg».proof.Proof.RefReduce
import proofs.«104515_j28578712388215_2_alg».proof.Proof.RefDot

noncomputable section

namespace Cert.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The maximum over the columns, at (t, f), is the pool over s. -/
theorem v0_at (a0 : FVec Ideal S512x512x256 .f32) (t : Fin 512) (f : Fin 256) :
    val_main_v0 (F := Ideal) a0 (ix2 t f) = Cert.Spec.sPool a0 t f := by
  unfold val_main_v0
  refine (Cert.RefReduce.reduce_max_axis1 a0 _ _ _ t f).trans ?_
  rfl

/-- The maximum over the rows, at (s, f), is the pool over t. -/
theorem v1_at (a0 : FVec Ideal S512x512x256 .f32) (s : Fin 512) (f : Fin 256) :
    val_main_v1 (F := Ideal) a0 (ix2 s f) = Cert.Spec.tPool a0 s f := by
  unfold val_main_v1
  refine (Cert.RefReduce.reduce_max_axis0 a0 _ _ _ s f).trans ?_
  rfl

/-- The first slice at (g, f) is w[g, f]. -/
theorem v2_at (a1 : FVec Ideal S256x512 .f32) (g f : Fin 256) :
    val_main_v2 (F := Ideal) a1 (ix2 g f) = Cert.Spec.wLeft a1 g f := by
  rw [val_main_v2_apply]
  unfold Cert.Spec.wLeft
  congr 1
  funext a
  match a with
  | ⟨0, _⟩ => rfl
  | ⟨1, _⟩ => rfl

/-- The second slice at (g, f) is w[g, 256 + f]. -/
theorem v3_at (a1 : FVec Ideal S256x512 .f32) (g f : Fin 256) :
    val_main_v3 (F := Ideal) a1 (ix2 g f) = Cert.Spec.wRight a1 g f := by
  rw [val_main_v3_apply]
  unfold Cert.Spec.wRight
  congr 1
  funext a
  match a with
  | ⟨0, _⟩ => rfl
  | ⟨1, _⟩ => rfl

/-- The first product at (t, g). -/
theorem v4_at (a0 : FVec Ideal S512x512x256 .f32) (a1 : FVec Ideal S256x512 .f32) (t : Fin 512) (g : Fin 256) :
    val_main_v4 (F := Ideal) a0 a1 (ix2 t g) = ∑ f : Fin 256, Cert.Spec.sPool a0 t f * Cert.Spec.wLeft a1 g f := by
  unfold val_main_v4
  refine (Cert.RefDot.dot_apply dot_S512x256_S256x256_S512x256_1_1_0_0_n_n_wf none _ _ t g).trans ?_
  exact Finset.sum_congr rfl fun f _ => by rw [v0_at, v2_at]

/-- The second product at (s, g). -/
theorem v5_at (a0 : FVec Ideal S512x512x256 .f32) (a1 : FVec Ideal S256x512 .f32) (s : Fin 512) (g : Fin 256) :
    val_main_v5 (F := Ideal) a0 a1 (ix2 s g) = ∑ f : Fin 256, Cert.Spec.tPool a0 s f * Cert.Spec.wRight a1 g f := by
  unfold val_main_v5
  refine (Cert.RefDot.dot_apply dot_S512x256_S256x256_S512x256_1_1_0_0_n_n_wf none _ _ s g).trans ?_
  exact Finset.sum_congr rfl fun f _ => by rw [v1_at, v3_at]

/-- The last stage at (t, s, g). -/
theorem result_at (a0 : FVec Ideal S512x512x256 .f32) (a1 : FVec Ideal S256x512 .f32) (a2 : FVec Ideal S256 .f32)
    (t s : Fin 512) (g : Fin 256) :
    val_main_v13 (F := Ideal) a0 a1 a2 (ix3 t s g) = Cert.Spec.out a0 a1 a2 t s g := by
  have e4 : idx_main_v6 (idx_main_v8 (ix3 t s g)) = ix2 t g := by
    funext a
    match a with
    | ⟨0, _⟩ => rfl
    | ⟨1, _⟩ => rfl
  have e5 : idx_main_v7 (idx_main_v9 (ix3 t s g)) = ix2 s g := by
    funext a
    match a with
    | ⟨0, _⟩ => rfl
    | ⟨1, _⟩ => rfl
  have e2 : idx_main_v11 (idx_main_v12 (ix3 t s g)) = ix1 g := by
    funext a
    match a with
    | ⟨0, _⟩ => rfl
  rw [val_main_v13_apply, val_main_v10_apply, val_main_v8_apply, val_main_v6_apply, val_main_v9_apply, val_main_v7_apply,
    val_main_v12_apply, val_main_v11_apply, e4, e5, e2, v4_at, v5_at]
  rfl

/-- The reference run's result term is the specification's array. -/
theorem result_eq (a0 : FVec Ideal S512x512x256 .f32) (a1 : FVec Ideal S256x512 .f32) (a2 : FVec Ideal S256 .f32) :
    addf (addf (broadcastInDim S512x512x256 ![0, 1, 2] bcast_S512x1x256_S512x512x256_0_1_2 (broadcastInDim S512x1x256 ![0, 2] bcast_S512x256_S512x1x256_0_2 (Host.dotGeneral dot_S512x256_S256x256_S512x256_1_1_0_0_n_n none (Host.reduce FloatOps.maximumf (a0) (constant S_ .f32 0xFF800000#32) reducesTo_S512x512x256_S512x256_d1 h_S_) (extractStridedSlice S256x256 ![0, 0] (a1) slices_S256x512_S256x256_0_0)))) (broadcastInDim S512x512x256 ![0, 1, 2] bcast_S1x512x256_S512x512x256_0_1_2 (broadcastInDim S1x512x256 ![1, 2] bcast_S512x256_S1x512x256_1_2 (Host.dotGeneral dot_S512x256_S256x256_S512x256_1_1_0_0_n_n none (Host.reduce FloatOps.maximumf (a0) (constant S_ .f32 0xFF800000#32) reducesTo_S512x512x256_S512x256_d0 h_S_) (extractStridedSlice S256x256 ![0, 256] (a1) slices_S256x512_S256x256_0_256))))) (broadcastInDim S512x512x256 ![0, 1, 2] bcast_S1x1x256_S512x512x256_0_1_2 (broadcastInDim S1x1x256 ![2] bcast_S256_S1x1x256_2 (a2)))
      = Cert.Spec.G a0 a1 a2 := by
  rw [val_main_v13_eq]
  funext i
  obtain ⟨t, s, g, rfl⟩ : ∃ t s g, i = ix3 t s g := ⟨i 0, i 1, i 2, eq_ix3 i⟩
  exact result_at a0 a1 a2 t s g

/-- Every weakly fair execution of the reference ends with its result the specification's array of the
    arguments, and the arguments unchanged. -/
theorem run (m' : (ℓ : Loc nD τ sig) → Buf (Elt Ideal) ℓ) (ρ' : Dev nD → PrngReg) :
    θ_run (defs (F := Ideal)) (onTc (τ := τ) (main (F := Ideal))) ⟨m', fun _ => 0, ρ'⟩ (fun r => ∀ c : Dev nD,
      r.2.mem ((c.tc : Thread nD τ).loc main_v13)
        = Cert.Spec.G (m' ((c.tc : Thread nD τ).loc main_arg0)) (m' ((c.tc : Thread nD τ).loc main_arg1))
            (m' ((c.tc : Thread nD τ).loc main_arg2))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)) :=
  (θ_run _ _ _).mono (fun _ h c => ⟨(h c).1.trans (result_eq _ _ _), (h c).2⟩)
    (Cert.ReferenceIdeal.Value.run (F := Ideal) m' ρ')

end Cert.RefValue

end
-- ==== Proof.KernelSpecs.lean ====
/-
  What the two calls leave in their output arrays, stated over literal coordinates: the facts the kernel's
  value is assembled from.
-/
import proofs.«104515_j28578712388215_2_alg».proof.Proof.DataI
import proofs.«104515_j28578712388215_2_alg».proof.Proof.Spec
import Idealize.ShloMosaic.Lib.ValueIdx

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem

/-- The maximum of x[128 q + r, s, f] over the 128 rows r of the q-th band of rows. -/
def partSpec (x : Cert.Spec.X.Idx → EReal) (q : Fin 4) (s : Fin 512) (f : Fin 256) : EReal :=
  Finset.univ.fold max Cert.Spec.start
    (fun r : Fin 128 => x (ix3 ⟨128 * q.val + r.val, by have := q.isLt; have := r.isLt; omega⟩ s f))

/-- The first call's row-maximum array holds the maximum over the columns. -/
abbrev RowsFact : Prop :=
  ∀ (V : (c : Dev nD) → (b : Ref sig .tc) → Buf (Elt Ideal) ((c : Thread nD τ).loc b)) (c : Dev nD),
    (dat0 (F := Ideal) V c).arrAt 1 cfg0.N = (fun i : S512x256.Idx => Cert.Spec.sPool (V c main_arg0) (i 0) (i 1))

/-- The first call's partial array holds, per band of 128 rows, the maximum over the band. -/
abbrev PartFact : Prop :=
  ∀ (V : (c : Dev nD) → (b : Ref sig .tc) → Buf (Elt Ideal) ((c : Thread nD τ).loc b)) (c : Dev nD),
    (dat0 (F := Ideal) V c).arrAt 2 cfg0.N = (fun i : S4x512x256.Idx => partSpec (V c main_arg0) (i 0) (i 1) (i 2))

/-- p[t, g] + q[s, g] + b[g]. -/
def sumSpec (p q : S512x256.Idx → EReal) (b : S256.Idx → EReal) (t s : Fin 512) (g : Fin 256) : EReal :=
  p (ix2 t g) + q (ix2 s g) + b (ix1 g)

/-- The second call's output array holds p[t, g] + q[s, g] + b[g]. -/
abbrev SumFact : Prop :=
  ∀ (V : (c : Dev nD) → (b : Ref sig .tc) → Buf (Elt Ideal) ((c : Thread nD τ).loc b)) (c : Dev nD),
    (dat1 (F := Ideal) V c).arrAt 3 cfg1.N
      = (fun i : S512x512x256.Idx => sumSpec (V c main_v4) (V c main_v5) (V c main_arg2) (i 0) (i 1) (i 2))

end Cert.KernelIdeal.HandValue

end
-- ==== Proof.KernelMath.lean ====
/-
  The mathematics the kernel's value rests on: a maximum over 512 rows regrouped as four bands of 128,
  and the two halves of a row of w read off the two slices.
-/
import proofs.«104515_j28578712388215_2_alg».proof.Proof.Spec
import proofs.«104515_j28578712388215_2_alg».proof.Proof.RefReduce
import Idealize.ShloMosaic.Lib.Pipeline.Value

noncomputable section

namespace Cert.KernelMath

open Idealize.ShloMosaic Idealize.ShloMosaic.ValueIdx

/-- A maximum over 512 positions is the maximum, over the four bands, of the maxima over each band's 128
    positions, from any initial value e (max is associative, commutative and idempotent). -/
theorem fold_max_bands (e : EReal) (g : Fin 512 → EReal) :
    Finset.univ.fold max e (fun q : Fin 4 => Finset.univ.fold max e
        (fun r : Fin 128 => g ⟨128 * q.val + r.val, by have := q.isLt; have := r.isLt; omega⟩))
      = Finset.univ.fold max e g := by
  apply le_antisymm
  · rw [Finset.fold_max_le]
    refine ⟨(Finset.le_fold_max _).2 (Or.inl le_rfl), fun q _ => ?_⟩
    rw [Finset.fold_max_le]
    exact ⟨(Finset.le_fold_max _).2 (Or.inl le_rfl),
      fun r _ => (Finset.le_fold_max _).2 (Or.inr ⟨_, Finset.mem_univ _, le_rfl⟩)⟩
  · rw [Finset.fold_max_le]
    refine ⟨(Finset.le_fold_max _).2 (Or.inl le_rfl), fun t _ => ?_⟩
    have ht := t.isLt
    refine (Finset.le_fold_max _).2 (Or.inr ⟨⟨t.val / 128, by omega⟩, Finset.mem_univ _, ?_⟩)
    refine (Finset.le_fold_max _).2 (Or.inr ⟨⟨t.val % 128, Nat.mod_lt _ (by decide)⟩, Finset.mem_univ _, ?_⟩)
    exact le_of_eq (congrArg g (Fin.ext (by show t.val = 128 * (t.val / 128) + t.val % 128; omega)))

/-- The first slice [0:256, 0:256] of w at (g, f) is w[g, f]. -/
theorem slice_left (w : FVec Ideal ⟨2, ![256, 512]⟩ .f32)
    (h : (⟨2, ![256, 512]⟩ : Shape).Slices ![0, 0] ⟨2, ![256, 256]⟩) (g f : Fin 256) :
    extractStridedSlice ⟨2, ![256, 256]⟩ ![0, 0] w h (ix2 g f) = Cert.Spec.wLeft w g f := by
  unfold Cert.Spec.wLeft
  exact extractStridedSlice_apply ![0, 0] w h (ix2 g f) _ (fun a => match a with
    | ⟨0, _⟩ => by show g.val = 0 + g.val; omega
    | ⟨1, _⟩ => by show f.val = 0 + f.val; omega)

/-- The second slice [0:256, 256:512] of w at (g, f) is w[g, 256 + f]. -/
theorem slice_right (w : FVec Ideal ⟨2, ![256, 512]⟩ .f32)
    (h : (⟨2, ![256, 512]⟩ : Shape).Slices ![0, 256] ⟨2, ![256, 256]⟩) (g f : Fin 256) :
    extractStridedSlice ⟨2, ![256, 256]⟩ ![0, 256] w h (ix2 g f) = Cert.Spec.wRight w g f := by
  unfold Cert.Spec.wRight
  exact extractStridedSlice_apply ![0, 256] w h (ix2 g f) _ (fun a => match a with
    | ⟨0, _⟩ => by show g.val = 0 + g.val; omega
    | ⟨1, _⟩ => by show 256 + f.val = 256 + f.val; omega)

end Cert.KernelMath

end
-- ==== Proof.KernelValue.lean ====
/-
  The kernel's result array, index by index on the extended reals, is the common specification — from what the
  two calls leave in their output arrays (the row maxima, the band maxima, the final sum) and the host operations
  between them: the two slices are the two halves of a row of w, the maximum over the four bands of the band maxima
  is the maximum over all rows, and each product is the sum over the features.
-/
import proofs.«104515_j28578712388215_2_alg».proof.Proof.KernelSpecs
import proofs.«104515_j28578712388215_2_alg».proof.Proof.KernelMath
import proofs.«104515_j28578712388215_2_alg».proof.Proof.RefDot
import proofs.«104515_j28578712388215_2_alg».proof.Proof.Gen.KernelIdeal.Regions
import Idealize.ShloMosaic.Lib.StableHlo.Run
import Idealize.ShloMosaic.PureOps.Ideal.Laws

noncomputable section

namespace Cert.KernelIdeal.HandValue

open Cert.KernelIdeal Cert.KernelIdeal.Gen
open Cert.KernelIdeal.Hand (W0 W1 W2 W3 W4 W2_arr W2_of_ne W4_arr dat0 dat1)
open Idealize.ShloMosaic Idealize.ShloMosaic.TcCoe Idealize.ShloMosaic.ValueIdx Idealize.SL.Sem Idealize.ShloMosaic.StableHlo

/-! ## The mathematics, over plain arrays -/

/-- The program's dimension numbers are the ones the product lemma is stated for. -/
theorem dot_eq : dot_S512x256_S256x256_S512x256_1_1_0_0_n_n
    = Cert.RefDot.D dot_S512x256_S256x256_S512x256_1_1_0_0_n_n_wf := rfl

/-- The product of the row maxima with the first slice, at (t, g). -/
theorem left_product (x : FVec Ideal S512x512x256 .f32) (w : FVec Ideal S256x512 .f32) (t : Fin 512) (g : Fin 256) :
    Host.dotGeneral (F := Ideal) (φ₁ := .f32) (φ₂ := .f32) (Cert.RefDot.D dot_S512x256_S256x256_S512x256_1_1_0_0_n_n_wf) (some .fp32)
        (fun i : S512x256.Idx => Cert.Spec.sPool x (i 0) (i 1))
        (extractStridedSlice S256x256 ![0, 0] w slices_S256x512_S256x256_0_0) (ix2 t g)
      = ∑ f : Fin 256, Cert.Spec.sPool x t f * Cert.Spec.wLeft w g f := by
  refine (Cert.RefDot.dot_apply _ _ _ _ t g).trans ?_
  refine Finset.sum_congr rfl fun f _ => ?_
  rw [Cert.KernelMath.slice_left]

/-- The product of the maxima over the four bands of the band maxima with the second slice, at (s, g). -/
theorem right_product (x : FVec Ideal S512x512x256 .f32) (w : FVec Ideal S256x512 .f32) (s : Fin 512) (g : Fin 256) :
    Host.dotGeneral (F := Ideal) (φ₁ := .f32) (φ₂ := .f32) (Cert.RefDot.D dot_S512x256_S256x256_S512x256_1_1_0_0_n_n_wf) (some .fp32)
        (Host.reduce (FloatOps.maximumf (F := Ideal) (φ := .f32)) (fun i : S4x512x256.Idx => partSpec x (i 0) (i 1) (i 2))
          (constant S_ .f32 0xFF800000#32) reducesTo_S4x512x256_S512x256_d0 h_S_)
        (extractStridedSlice S256x256 ![0, 256] w slices_S256x512_S256x256_0_256) (ix2 s g)
      = ∑ f : Fin 256, Cert.Spec.tPool x s f * Cert.Spec.wRight w g f := by
  refine (Cert.RefDot.dot_apply _ _ _ _ s g).trans ?_
  refine Finset.sum_congr rfl fun f _ => ?_
  rw [Cert.KernelMath.slice_right,
    Cert.RefReduce.reduce_max_rows _ _ reducesTo_S4x512x256_S512x256_d0 Cert.RefReduce.red0_4 h_S_ s f]
  exact congrArg (· * Cert.Spec.wRight w g f)
    (Cert.KernelMath.fold_max_bands Cert.Spec.start (fun t : Fin 512 => x (ix3 t s f)))

/-! ## The buffers at each boundary -/

variable (m : (ℓ : Loc nD τ sig) → Buf (Elt Ideal) ℓ) (ρ : Dev nD → PrngReg)

/-- The slices leave every other buffer as launched. -/
theorem W1_keep (c : Dev nD) (r : Ref sig .tc) (h : r ∉ hostOps0_W) :
    W1 (F := Ideal) m ρ c (Proc.devRef .tc r) = m ((c : Thread nD τ).loc r) :=
  (StableHlo.after_of_writes_sub hostOps0 _ hostOps0_writes h).trans rfl

theorem W1_v0 (c : Dev nD) : W1 (F := Ideal) m ρ c (Proc.devRef .tc main_v0)
    = extractStridedSlice S256x256 ![0, 0] (m ((c : Thread nD τ).loc main_arg1)) slices_S256x512_S256x256_0_0 := by
  show StableHlo.after hostOps0 _ _ = _
  after_results

theorem W1_v1 (c : Dev nD) : W1 (F := Ideal) m ρ c (Proc.devRef .tc main_v1)
    = extractStridedSlice S256x256 ![0, 256] (m ((c : Thread nD τ).loc main_arg1)) slices_S256x512_S256x256_0_256 := by
  show StableHlo.after hostOps0 _ _ = _
  after_results

/-- The first call leaves every buffer that is none of its arrays as it found it. -/
theorem W2_v0 (c : Dev nD) : W2 (F := Ideal) m ρ c (Proc.devRef .tc main_v0)
    = extractStridedSlice S256x256 ![0, 0] (m ((c : Thread nD τ).loc main_arg1)) slices_S256x512_S256x256_0_0 :=
  (W2_of_ne m ρ c main_v0 (by decide)).trans (W1_v0 m ρ c)

theorem W2_v1 (c : Dev nD) : W2 (F := Ideal) m ρ c (Proc.devRef .tc main_v1)
    = extractStridedSlice S256x256 ![0, 256] (m ((c : Thread nD τ).loc main_arg1)) slices_S256x512_S256x256_0_256 :=
  (W2_of_ne m ρ c main_v1 (by decide)).trans (W1_v1 m ρ c)

theorem W2_arg2 (c : Dev nD) : W2 (F := Ideal) m ρ c (Proc.devRef .tc main_arg2) = m ((c : Thread nD τ).loc main_arg2) :=
  (W2_of_ne m ρ c main_arg2 (by decide)).trans (W1_keep m ρ c main_arg2 (by decide))

/-- The first call's row-maximum array. -/
theorem W2_rows (hrows : RowsFact) (c : Dev nD) : W2 (F := Ideal) m ρ c (Proc.devRef .tc main_v2_0)
    = (fun i : S512x256.Idx => Cert.Spec.sPool (m ((c : Thread nD τ).loc main_arg0)) (i 0) (i 1)) :=
  ((W2_arr m ρ c 1).trans (hrows (Cert.KernelIdeal.Hand.V1 m ρ) c)).trans
    (congrArg (fun x : Cert.Spec.X.Idx → EReal => fun i : S512x256.Idx => Cert.Spec.sPool x (i 0) (i 1))
      (W1_keep m ρ c main_arg0 (by decide)))

/-- The first call's band-maximum array. -/
theorem W2_part (hpart : PartFact) (c : Dev nD) : W2 (F := Ideal) m ρ c (Proc.devRef .tc main_v2_1)
    = (fun i : S4x512x256.Idx => partSpec (m ((c : Thread nD τ).loc main_arg0)) (i 0) (i 1) (i 2)) :=
  ((W2_arr m ρ c 2).trans (hpart (Cert.KernelIdeal.Hand.V1 m ρ) c)).trans
    (congrArg (fun x : Cert.Spec.X.Idx → EReal => fun i : S4x512x256.Idx => partSpec x (i 0) (i 1) (i 2))
      (W1_keep m ρ c main_arg0 (by decide)))

/-- The host operations between the calls. -/
theorem W3_v4 (c : Dev nD) : (W3 (F := Ideal) m ρ c (Proc.devRef .tc main_v4) : S512x256.Idx → EReal)
    = Host.dotGeneral (F := Ideal) (φ₁ := .f32) (φ₂ := .f32) dot_S512x256_S256x256_S512x256_1_1_0_0_n_n (some .fp32)
        (W2 m ρ c (Proc.devRef .tc main_v2_0)) (W2 m ρ c (Proc.devRef .tc main_v0)) := by
  show StableHlo.after hostOps1 _ _ = _
  after_results

theorem W3_v5 (c : Dev nD) : (W3 (F := Ideal) m ρ c (Proc.devRef .tc main_v5) : S512x256.Idx → EReal)
    = Host.dotGeneral (F := Ideal) (φ₁ := .f32) (φ₂ := .f32) dot_S512x256_S256x256_S512x256_1_1_0_0_n_n (some .fp32)
        (Host.reduce (FloatOps.maximumf (F := Ideal) (φ := .f32)) (W2 m ρ c (Proc.devRef .tc main_v2_1))
          (constant S_ .f32 0xFF800000#32) reducesTo_S4x512x256_S512x256_d0 h_S_)
        (W2 m ρ c (Proc.devRef .tc main_v1)) := by
  show StableHlo.after hostOps1 _ _ = _
  after_results

theorem W3_arg2 (c : Dev nD) : W3 (F := Ideal) m ρ c (Proc.devRef .tc main_arg2) = m ((c : Thread nD τ).loc main_arg2) :=
  (StableHlo.after_of_writes_sub hostOps1 _ hostOps1_writes (by decide)).trans (W2_arg2 m ρ c)

/-! ## The kernel's value -/

/-- From what the two calls leave in their arrays: the kernel's result array is the specification's array of the
    arguments as launched. -/
theorem kernel_value_at (hrows : RowsFact) (hpart : PartFact) (hsum : SumFact) (c : Dev nD) :
    W4 (F := Ideal) m ρ c (Proc.devRef .tc main_v6)
      = Cert.Spec.G (m ((c : Thread nD τ).loc main_arg0)) (m ((c : Thread nD τ).loc main_arg1))
          (m ((c : Thread nD τ).loc main_arg2)) := by
  refine ((W4_arr m ρ c 3).trans (hsum (Cert.KernelIdeal.Hand.V3 m ρ) c)).trans ?_
  funext i
  obtain ⟨t, s, g, rfl⟩ : ∃ t s g, i = ix3 t s g := ⟨i 0, i 1, i 2, eq_ix3 i⟩
  show sumSpec (W3 m ρ c (Proc.devRef .tc main_v4)) (W3 m ρ c (Proc.devRef .tc main_v5))
      (W3 m ρ c (Proc.devRef .tc main_arg2)) t s g
    = Cert.Spec.out (m ((c : Thread nD τ).loc main_arg0)) (m ((c : Thread nD τ).loc main_arg1))
        (m ((c : Thread nD τ).loc main_arg2)) t s g
  rw [W3_v4 m ρ c, W3_v5 m ρ c, W3_arg2 m ρ c, W2_rows m ρ hrows c, W2_part m ρ hpart c, W2_v0 m ρ c, W2_v1 m ρ c, dot_eq]
  unfold sumSpec Cert.Spec.out
  rw [left_product, right_product]

/-- The same, with the facts first. -/
theorem kernel_value (hrows : RowsFact) (hpart : PartFact) (hsum : SumFact)
    (m : (ℓ : Loc nD τ sig) → Buf (Elt Ideal) ℓ) (ρ : Dev nD → PrngReg) (c : Dev nD) :
    W4 (F := Ideal) m ρ c (Proc.devRef .tc main_v6)
      = Cert.Spec.G (m ((c : Thread nD τ).loc main_arg0)) (m ((c : Thread nD τ).loc main_arg1))
          (m ((c : Thread nD τ).loc main_arg2)) :=
  kernel_value_at m ρ hrows hpart hsum c

end Cert.KernelIdeal.HandValue

end
-- ==== Proof.SumAt.lean ====
/-
  The second call's body at one index: the stored block is p[a, g] + q[b, g] + bias[g] at (a, b, g), where p is the
  64 x 256 block, q the 128 x 256 block and bias the 256-vector it loads (each spread over the missing axes).
-/
import proofs.«104515_j28578712388215_2_alg».proof.Proof.DataI
import proofs.«104515_j28578712388215_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The 64 x 256 block spread along a new middle axis of length 128, read at (a, b, g): the block at (a, g). -/
theorem spreadRows_apply (v : Vec Ideal S64x256 .f32) (a : Fin 64) (b : Fin 128) (g : Fin 256) :
    broadcastTo S64x128x256 (shapeCast S64x1x256 (shapeCast S64x256 v shapeCasts_S64x256_S64x256) shapeCasts_S64x256_S64x1x256)
      broadcasts_S64x1x256_S64x128x256 (ix3 a b g) = v (ix2 a g) := by
  refine (broadcastTo_apply _ _ (ix3 a b g) (ix3 a (0 : Fin 1) g) fun ax => ?_).trans ?_
  · match ax with
    | ⟨0, _⟩ => rfl
    | ⟨1, _⟩ => rfl
    | ⟨2, _⟩ => rfl
  · rw [shapeCast_self]
    refine shapeCast_apply v _ _ (ix2 a g) ?_
    rw [Shape.rowMajor_val_three, Shape.rowMajor_val_two]
    show a.val * 256 + g.val = (a.val * 1 + 0) * 256 + g.val
    omega

/-- The 128 x 256 block spread along a new leading axis of length 64, read at (a, b, g): the block at (b, g). -/
theorem spreadCols_apply (v : Vec Ideal S128x256 .f32) (a : Fin 64) (b : Fin 128) (g : Fin 256) :
    broadcastTo S64x128x256 (shapeCast S1x128x256 (shapeCast S128x256 v shapeCasts_S128x256_S128x256) shapeCasts_S128x256_S1x128x256)
      broadcasts_S1x128x256_S64x128x256 (ix3 a b g) = v (ix2 b g) := by
  refine (broadcastTo_apply _ _ (ix3 a b g) (ix3 (0 : Fin 1) b g) fun ax => ?_).trans ?_
  · match ax with
    | ⟨0, _⟩ => rfl
    | ⟨1, _⟩ => rfl
    | ⟨2, _⟩ => rfl
  · rw [shapeCast_self]
    exact shapeCast_ab_1ab_apply v _ 0 b g

/-- The 256-vector spread along two new leading axes, read at (a, b, g): the vector at g. -/
theorem spreadBias_apply (v : Vec Ideal S256 .f32) (a : Fin 64) (b : Fin 128) (g : Fin 256) :
    broadcastTo S64x128x256 (shapeCast S1x1x256 v shapeCasts_S256_S1x1x256) broadcasts_S1x1x256_S64x128x256 (ix3 a b g) = v (ix1 g) := by
  refine (broadcastTo_apply _ _ (ix3 a b g) (ix3 (0 : Fin 1) (0 : Fin 1) g) fun ax => ?_).trans ?_
  · match ax with
    | ⟨0, _⟩ => rfl
    | ⟨1, _⟩ => rfl
    | ⟨2, _⟩ => rfl
  · refine shapeCast_apply v _ _ (ix1 g) ?_
    rw [Shape.rowMajor_val_three, Shape.rowMajor_val_one]
    show g.val = (0 * 1 + 0) * 256 + g.val
    omega

/-- The body's stored value at (a, b, g). -/
theorem pay_apply (v0 : Vec Ideal S64x256 .f32) (v3 : Vec Ideal S128x256 .f32) (v9 : Vec Ideal S256 .f32)
    (a : Fin 64) (b : Fin 128) (g : Fin 256) :
    k1_pay1 v0 v3 v9 (ix3 a b g) = v0 (ix2 a g) + v3 (ix2 b g) + v9 (ix1 g) := by
  unfold k1_pay1
  rw [addf_apply, addf_apply, spreadRows_apply, spreadCols_apply, spreadBias_apply]

/-- What the output buffer holds after the body, at (a, b, g). -/
theorem sumOf_apply (x0 : Vec Ideal S64x256 .f32) (x1 : Vec Ideal S128x256 .f32) (x2 : Vec Ideal S256 .f32)
    (a : Fin 64) (b : Fin 128) (g : Fin 256) :
    sumOf x0 x1 x2 (ix3 a b g) = x0 (ix2 a g) + x1 (ix2 b g) + x2 (ix1 g) := by
  unfold sumOf
  rw [View.canon_unit_zero hz3]
  rw [View.ld_unit_zero (S := S64x256) hz2, View.ld_unit_zero (S := S128x256) hz2, View.ld_unit_zero (S := S256) hz1]
  exact pay_apply x0 x1 x2 a b g

end Cert.KernelIdeal.HandValue

end
-- ==== Proof.FinalSum.lean ====
/-
  What the second call leaves in its output array: out[a, b, g] = p[a, g] + q[b, g] + bias[g], where p, q and bias are
  the three arrays the call reads. The block of the output at grid point t = 4 i + j is rows 64 i .., columns 128 j ..;
  the body's stored block there is the sum of p's rows 64 i .., of q's rows 128 j .. and of bias; the blocks cover the array.
-/
import proofs.«104515_j28578712388215_2_alg».proof.Proof.DataI
import proofs.«104515_j28578712388215_2_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«104515_j28578712388215_2_alg».proof.Proof.SumAt

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The array out[a, b, g] = p[a, g] + q[b, g] + bias[g]. -/
abbrev sumArr (p q : S512x256.Idx → EReal) (bias : S256.Idx → EReal) : S512x512x256.Idx → EReal :=
  fun i => p (ix2 (i 0) (i 2)) + q (ix2 (i 1) (i 2)) + bias (ix1 (i 2))

/-- The stored block at any index of the block. -/
theorem sumOf_at (x0 : Vec Ideal S64x256 .f32) (x1 : Vec Ideal S128x256 .f32) (x2 : Vec Ideal S256 .f32) (y : S64x128x256.Idx) :
    sumOf x0 x1 x2 y = x0 (ix2 (y 0) (y 2)) + x1 (ix2 (y 1) (y 2)) + x2 (ix1 (y 2)) := by
  obtain ⟨a, b, g, rfl⟩ : ∃ (a : Fin 64) (b : Fin 128) (g : Fin 256), y = ix3 a b g := ⟨y 0, y 1, y 2, eq_ix3 y⟩
  exact sumOf_apply x0 x1 x2 a b g

/-- The block index of each window at grid point t (t / 4 along the first grid axis, t % 4 along the second), decided over the grid. -/
theorem idx_facts1 : ∀ t : Fin cfg1.N,
    win1_0.index t (0 : Fin 2) = t.val / 4 ∧ win1_0.index t (1 : Fin 2) = 0
    ∧ win1_1.index t (0 : Fin 2) = t.val % 4 ∧ win1_1.index t (1 : Fin 2) = 0
    ∧ win1_2.index t (0 : Fin 1) = 0
    ∧ win1_3.index t (0 : Fin 3) = t.val / 4 ∧ win1_3.index t (1 : Fin 3) = t.val % 4 ∧ win1_3.index t (2 : Fin 3) = 0 :=
  (by decide +kernel : ∀ t : Fin grid1.N, _)

/-- The first input block at point t is rows 64 (t / 4) .. of p. -/
theorem rowBlock_apply (c : Dev nD) (t : Fin cfg1.N) (a : Fin 64) (g : Fin 256) (k : S512x256.Idx)
    (hk0 : (k 0).val = 64 * (t.val / 4) + a.val) (hk1 : (k 1).val = g.val) :
    (iblk1 V c 0 t : Vec Ideal S64x256 .f32) (ix2 a g) = (V c main_v4 : S512x256.Idx → EReal) k := by
  obtain ⟨e0, e1, -⟩ := idx_facts1 t
  unfold iblk1
  rw [View.read_apply]
  show V c main_v4 _ = V c main_v4 _
  congr 1
  funext ax
  apply Fin.ext
  match ax with
  | ⟨0, _⟩ => show win1_0.index t (0 : Fin 2) * 64 + 1 * a.val = (k 0).val; rw [e0, hk0]; omega
  | ⟨1, _⟩ => show win1_0.index t (1 : Fin 2) * 256 + 1 * g.val = (k 1).val; rw [e1, hk1]; omega

/-- The second input block at point t is rows 128 (t % 4) .. of q. -/
theorem colBlock_apply (c : Dev nD) (t : Fin cfg1.N) (b : Fin 128) (g : Fin 256) (k : S512x256.Idx)
    (hk0 : (k 0).val = 128 * (t.val % 4) + b.val) (hk1 : (k 1).val = g.val) :
    (iblk1 V c 1 t : Vec Ideal S128x256 .f32) (ix2 b g) = (V c main_v5 : S512x256.Idx → EReal) k := by
  obtain ⟨-, -, e2, e3, -⟩ := idx_facts1 t
  unfold iblk1
  rw [View.read_apply]
  show V c main_v5 _ = V c main_v5 _
  congr 1
  funext ax
  apply Fin.ext
  match ax with
  | ⟨0, _⟩ => show win1_1.index t (0 : Fin 2) * 128 + 1 * b.val = (k 0).val; rw [e2, hk0]; omega
  | ⟨1, _⟩ => show win1_1.index t (1 : Fin 2) * 256 + 1 * g.val = (k 1).val; rw [e3, hk1]; omega

/-- The third input block at any point is bias. -/
theorem biasBlock_apply (c : Dev nD) (t : Fin cfg1.N) (g : Fin 256) (k : S256.Idx) (hk0 : (k 0).val = g.val) :
    (iblk1 V c 2 t : Vec Ideal S256 .f32) (ix1 g) = (V c main_arg2 : S256.Idx → EReal) k := by
  obtain ⟨-, -, -, -, e4, -⟩ := idx_facts1 t
  unfold iblk1
  rw [View.read_apply]
  show V c main_arg2 _ = V c main_arg2 _
  congr 1
  funext ax
  apply Fin.ext
  match ax with
  | ⟨0, _⟩ => show win1_2.index t (0 : Fin 1) * 256 + 1 * g.val = (k 0).val; rw [e4, hk0]; omega

/-- What point t writes back is block t of the array p[a, g] + q[b, g] + bias[g]. -/
theorem flushed3_eq (c : Dev nD) (t : Fin cfg1.N) :
    (dat1 V c).flushed 3 t = ((cfg1.win 3).blk t).view.read (Elt Ideal) (sumArr (V c main_v4) (V c main_v5) (V c main_arg2)) := by
  show (cfg1.win 3).cut (cfg1.grid.coords t) ((dat1 V c).after 3 t) = _
  rw [after1_3]
  obtain ⟨-, -, -, -, -, e5, e6, e7⟩ := idx_facts1 t
  funext j
  show sumOf (iblk1 V c 0 t) (iblk1 V c 1 t) (iblk1 V c 2 t) ((cfg1.win 3).xinj (cfg1.grid.coords t) j)
    = sumArr (V c main_v4) (V c main_v5) (V c main_arg2) (((cfg1.win 3).blk t).view.emb j)
  refine (sumOf_at _ _ _ _).trans ?_
  unfold sumArr
  have hj0 : (j 0).val < 64 := (j 0).isLt
  have hj1 : (j 1).val < 128 := (j 1).isLt
  have hj2 : (j 2).val < 256 := (j 2).isLt
  refine congrArg₂ (· + ·) (congrArg₂ (· + ·) ?_ ?_) ?_
  · refine rowBlock_apply V c t _ _ _ ?_ ?_
    · show win1_3.index t (0 : Fin 3) * 64 + 1 * (j 0).val = 64 * (t.val / 4) + (j 0).val; rw [e5]; omega
    · show win1_3.index t (2 : Fin 3) * 256 + 1 * (j 2).val = (j 2).val; rw [e7]; omega
  · refine colBlock_apply V c t _ _ _ ?_ ?_
    · show win1_3.index t (1 : Fin 3) * 128 + 1 * (j 1).val = 128 * (t.val % 4) + (j 1).val; rw [e6]; omega
    · show win1_3.index t (2 : Fin 3) * 256 + 1 * (j 2).val = (j 2).val; rw [e7]; omega
  · refine biasBlock_apply V c t _ _ ?_
    show win1_3.index t (2 : Fin 3) * 256 + 1 * (j 2).val = (j 2).val; rw [e7]; omega

/-- An index of the array is in point t's block iff each coordinate is in the block's range on its axis. -/
theorem mem_blk3 (t : Fin cfg1.N) (i : S512x512x256.Idx) :
    i ∈ ((cfg1.win 3).blk t).view.set ↔ ∀ a : Fin 3, win1_3.index t a * S64x128x256.size a ≤ (i a).val ∧ (i a).val < win1_3.index t a * S64x128x256.size a + S64x128x256.size a := by
  show i ∈ ((View.whole main_v6).slice (win1_3.rect t)).set ↔ _
  rw [View.set_slice_whole, Rect.mem_set_unit]
  exact Iff.rfl

/-- Every index (a, b, g) is in the block of the point 4 (a / 64) + b / 128, which writes back. -/
theorem cover3 (i : S512x512x256.Idx) :
    ∃ t : Fin cfg1.N, (cfg1.win 3).flush t = true ∧ i ∈ ((cfg1.win 3).blk t).view.set := by
  have h0 : (i 0).val < 512 := (i 0).isLt
  have h1 : (i 1).val < 512 := (i 1).isLt
  have h2 : (i 2).val < 256 := (i 2).isLt
  obtain ⟨t, ht⟩ : ∃ t : Fin cfg1.N, t.val = 4 * ((i 0).val / 64) + (i 1).val / 128 :=
    ⟨⟨4 * ((i 0).val / 64) + (i 1).val / 128, by show _ < grid1.N; rw [N_1]; omega⟩, rfl⟩
  obtain ⟨-, -, -, -, -, e5, e6, e7⟩ := idx_facts1 t
  refine ⟨t, flush1_3 t, ?_⟩
  rw [mem_blk3]
  intro a
  match a with
  | ⟨0, _⟩ => show win1_3.index t (0 : Fin 3) * 64 ≤ (i 0).val ∧ (i 0).val < win1_3.index t (0 : Fin 3) * 64 + 64; rw [e5]; omega
  | ⟨1, _⟩ => show win1_3.index t (1 : Fin 3) * 128 ≤ (i 1).val ∧ (i 1).val < win1_3.index t (1 : Fin 3) * 128 + 128; rw [e6]; omega
  | ⟨2, _⟩ => show win1_3.index t (2 : Fin 3) * 256 ≤ (i 2).val ∧ (i 2).val < win1_3.index t (2 : Fin 3) * 256 + 256; rw [e7]; omega

/-- The output array after the second call: out[a, b, g] = p[a, g] + q[b, g] + bias[g] of the three arrays it reads. -/
theorem final1 (c : Dev nD) :
    (dat1 (F := Ideal) V c).arrAt 3 cfg1.N = sumArr (V c main_v4) (V c main_v5) (V c main_arg2) :=
  (dat1 V c).arrAt_eq_of_cover 3 _ (fun t _ => flushed3_eq V c t) cover3

/-- The same at an index given by its coordinates. -/
theorem final1_apply (c : Dev nD) (a b : Fin 512) (g : Fin 256) :
    (dat1 (F := Ideal) V c).arrAt 3 cfg1.N (ix3 a b g)
      = sumArr (V c main_v4) (V c main_v5) (V c main_arg2) (ix3 a b g) :=
  congrFun (final1 V c) (ix3 a b g)

end Cert.KernelIdeal.HandValue

end
-- ==== Proof.FinalPart.lean ====
/-
  What the first call leaves in its partial array: part[q, s, f] is the maximum, from the pattern of minus infinity, of
  x[128 q + r, s, f] over the 128 rows r of the q-th band. The block of the partial array at grid point t = 4 i + j is
  band i, columns 128 j ..; the body stores there the maximum over the rows of the input block x[128 i .., 128 j .., :];
  every point writes its block back and the blocks cover the array.
-/
import proofs.«104515_j28578712388215_2_alg».proof.Proof.DataI
import proofs.«104515_j28578712388215_2_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«104515_j28578712388215_2_alg».proof.Proof.KernelSpecs
import proofs.«104515_j28578712388215_2_alg».proof.Proof.SumAt

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The reduction over the rows of a 128 x 128 x 256 block from the pattern of minus infinity, read at (s, f): the maximum
    over the rows r of the block at (r, s, f). -/
theorem maxRows_apply (x : Vec Ideal S128x128x256 .f32) (hφ : FKind.Formats .f32)
    (hacc : (0xFF800000#32 : BitVec 32) = FKind.maximumf.neutral .f32 hφ) (s : Fin 128) (f : Fin 256) :
    multiReduction .maximumf [0] S128x256 x 0xFF800000#32 reduces_S128x128x256_S128x256_2 hφ hacc (ix2 s f)
      = Finset.univ.fold max (Ideal.ofBits .f32 0xFF800000#32) (fun r : Fin 128 => x (ix3 r s f)) := by
  refine (Ideal.multiReduction_maximumf_single x _ _ hφ hacc (ix2 s f)).trans ?_
  refine congrArg (Finset.univ.fold max (Ideal.ofBits .f32 0xFF800000#32)) (funext fun r => ?_)
  show x (reduces_S128x128x256_S128x256_2.lift (ix2 s f) r) = x (ix3 r s f)
  refine congrArg x (funext fun a => Fin.ext ?_)
  match a with
  | ⟨0, _⟩ => rfl
  | ⟨1, _⟩ => rfl
  | ⟨2, _⟩ => rfl

/-- The body's stored partial block at (u, s, f): the maximum over the rows r of the input block at (r, s, f). -/
theorem partPay_apply (x : Vec Ideal S128x128x256 .f32) (u : Fin 1) (s : Fin 128) (f : Fin 256) :
    k0_pay3 x (ix3 u s f) = Finset.univ.fold max Cert.Spec.start (fun r : Fin 128 => x (ix3 r s f)) := by
  unfold k0_pay3 Cert.Spec.start
  refine (shapeCast_ab_1ab_apply _ shapeCasts_S128x256_S1x128x256 u s f).trans ?_
  exact maxRows_apply x _ _ s f

/-- What the partial buffer holds after the body, at any index of the block. -/
theorem partOf_at (x0 : Vec Ideal S128x128x256 .f32) (y : S1x128x256.Idx) :
    partOf x0 y = Finset.univ.fold max Cert.Spec.start (fun r : Fin 128 => x0 (ix3 r (y 1) (y 2))) := by
  obtain ⟨u, s, f, rfl⟩ : ∃ (u : Fin 1) (s : Fin 128) (f : Fin 256), y = ix3 u s f := ⟨y 0, y 1, y 2, eq_ix3 y⟩
  unfold partOf
  rw [View.canon_unit_zero hz3, View.ld_unit_zero (S := S128x128x256) hz3]
  exact partPay_apply x0 u s f

/-- The block index of the input window and of the partial window at grid point t (t / 4 along the first grid axis,
    t % 4 along the second), decided over the grid. -/
theorem idx_facts0_part : ∀ t : Fin cfg0.N,
    win0_0.index t (0 : Fin 3) = t.val / 4 ∧ win0_0.index t (1 : Fin 3) = t.val % 4 ∧ win0_0.index t (2 : Fin 3) = 0
    ∧ win0_2.index t (0 : Fin 3) = t.val / 4 ∧ win0_2.index t (1 : Fin 3) = t.val % 4 ∧ win0_2.index t (2 : Fin 3) = 0 :=
  (by decide +kernel : ∀ t : Fin grid0.N, _)

/-- The input block at point t is x[128 (t / 4) .., 128 (t % 4) .., :]. -/
theorem argBlock_apply (c : Dev nD) (t : Fin cfg0.N) (r s : Fin 128) (f : Fin 256) (k : S512x512x256.Idx)
    (hk0 : (k 0).val = 128 * (t.val / 4) + r.val) (hk1 : (k 1).val = 128 * (t.val % 4) + s.val) (hk2 : (k 2).val = f.val) :
    (iblk0 V c 0 t : Vec Ideal S128x128x256 .f32) (ix3 r s f) = (V c main_arg0 : S512x512x256.Idx → EReal) k := by
  obtain ⟨e0, e1, e2, -⟩ := idx_facts0_part t
  unfold iblk0
  rw [View.read_apply]
  show V c main_arg0 _ = V c main_arg0 _
  congr 1
  funext ax
  apply Fin.ext
  match ax with
  | ⟨0, _⟩ => show win0_0.index t (0 : Fin 3) * 128 + 1 * r.val = (k 0).val; rw [e0, hk0]; omega
  | ⟨1, _⟩ => show win0_0.index t (1 : Fin 3) * 128 + 1 * s.val = (k 1).val; rw [e1, hk1]; omega
  | ⟨2, _⟩ => show win0_0.index t (2 : Fin 3) * 256 + 1 * f.val = (k 2).val; rw [e2, hk2]; omega

/-- What point t writes back is block t of the array of band maxima. -/
theorem flushedPart_eq (c : Dev nD) (t : Fin cfg0.N) :
    (dat0 V c).flushed 2 t = ((cfg0.win 2).blk t).view.read (Elt Ideal)
      (fun i : S4x512x256.Idx => partSpec (V c main_arg0) (i 0) (i 1) (i 2)) := by
  show (cfg0.win 2).cut (cfg0.grid.coords t) ((dat0 V c).after 2 t) = _
  rw [after0_2]
  obtain ⟨-, -, -, e3, e4, e5⟩ := idx_facts0_part t
  funext j
  show partOf (iblk0 V c 0 t) ((cfg0.win 2).xinj (cfg0.grid.coords t) j)
    = partSpec (V c main_arg0) ((((cfg0.win 2).blk t).view.emb j) 0) ((((cfg0.win 2).blk t).view.emb j) 1) ((((cfg0.win 2).blk t).view.emb j) 2)
  refine (partOf_at _ _).trans ?_
  unfold partSpec
  have hj0 : (j 0).val < 1 := (j 0).isLt
  have hj1 : (j 1).val < 128 := (j 1).isLt
  have hj2 : (j 2).val < 256 := (j 2).isLt
  refine congrArg (Finset.univ.fold max Cert.Spec.start) (funext fun r => ?_)
  refine argBlock_apply V c t r _ _ _ ?_ ?_ ?_
  · show 128 * (win0_2.index t (0 : Fin 3) * 1 + 1 * (j 0).val) + r.val = 128 * (t.val / 4) + r.val; rw [e3]; omega
  · show win0_2.index t (1 : Fin 3) * 128 + 1 * (j 1).val = 128 * (t.val % 4) + (j 1).val; rw [e4]; omega
  · show win0_2.index t (2 : Fin 3) * 256 + 1 * (j 2).val = (j 2).val; rw [e5]; omega

/-- An index of the partial array is in point t's block iff each coordinate is in the block's range on its axis. -/
theorem mem_blkPart (t : Fin cfg0.N) (i : S4x512x256.Idx) :
    i ∈ ((cfg0.win 2).blk t).view.set ↔ ∀ a : Fin 3, win0_2.index t a * S1x128x256.size a ≤ (i a).val ∧ (i a).val < win0_2.index t a * S1x128x256.size a + S1x128x256.size a := by
  show i ∈ ((View.whole main_v2_1).slice (win0_2.rect t)).set ↔ _
  rw [View.set_slice_whole, Rect.mem_set_unit]
  exact Iff.rfl

/-- Every index (q, s, f) is in the block of the point 4 q + s / 128, which writes back. -/
theorem coverPart (i : S4x512x256.Idx) :
    ∃ t : Fin cfg0.N, (cfg0.win 2).flush t = true ∧ i ∈ ((cfg0.win 2).blk t).view.set := by
  have h0 : (i 0).val < 4 := (i 0).isLt
  have h1 : (i 1).val < 512 := (i 1).isLt
  have h2 : (i 2).val < 256 := (i 2).isLt
  obtain ⟨t, ht⟩ : ∃ t : Fin cfg0.N, t.val = 4 * (i 0).val + (i 1).val / 128 :=
    ⟨⟨4 * (i 0).val + (i 1).val / 128, by show _ < grid0.N; rw [N_0]; omega⟩, rfl⟩
  obtain ⟨-, -, -, e3, e4, e5⟩ := idx_facts0_part t
  refine ⟨t, flush0_2 t, ?_⟩
  rw [mem_blkPart]
  intro a
  match a with
  | ⟨0, _⟩ => show win0_2.index t (0 : Fin 3) * 1 ≤ (i 0).val ∧ (i 0).val < win0_2.index t (0 : Fin 3) * 1 + 1; rw [e3]; omega
  | ⟨1, _⟩ => show win0_2.index t (1 : Fin 3) * 128 ≤ (i 1).val ∧ (i 1).val < win0_2.index t (1 : Fin 3) * 128 + 128; rw [e4]; omega
  | ⟨2, _⟩ => show win0_2.index t (2 : Fin 3) * 256 ≤ (i 2).val ∧ (i 2).val < win0_2.index t (2 : Fin 3) * 256 + 256; rw [e5]; omega

/-- The partial array after the first call: per band of 128 rows, the maximum over the band. -/
theorem final0_part : PartFact :=
  fun V c => (dat0 V c).arrAt_eq_of_cover 2 _ (fun t _ => flushedPart_eq V c t) coverPart

end Cert.KernelIdeal.HandValue

end
-- ==== Proof.FinalRows.lean ====
/-
  What the first call leaves in its row-maximum array: rows[t, f] is the maximum over the columns s of x[t, s, f].
  The block of that array at grid point 4 i + j is rows 128 i ..; it is written back only after the last column block
  (j = 3), when the buffer holds the maximum over all four column blocks. That fact about the buffer at the points with
  j = 3 is taken as a hypothesis here; from it, the written blocks are the blocks of the array of row maxima, and the
  points 4 i + 3 cover the array.
-/
import proofs.«104515_j28578712388215_2_alg».proof.Proof.DataI
import proofs.«104515_j28578712388215_2_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«104515_j28578712388215_2_alg».proof.Proof.KernelSpecs

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

/-- What the row-maximum buffer holds after the body at a point with j = 3: at (p, f), the maximum over all columns of
    row 128 (t / 4) + p. -/
abbrev RowsLast : Prop :=
  ∀ (V : (c : Dev nD) → (b : Ref sig .tc) → Buf (Elt Ideal) ((c : Thread nD τ).loc b)) (c : Dev nD) (t : Fin cfg0.N)
    (h3 : t.val % 4 = 3) (p : Fin 128) (f : Fin 256) (r : Fin 512) (hr : r.val = 128 * (t.val / 4) + p.val),
    accAt V c t.val t.isLt (ix2 p f) = Cert.Spec.sPool (V c main_arg0) r f

/-- The block index of the row-maximum window at grid point t, decided over the grid. -/
theorem idx_facts0_rows : ∀ t : Fin cfg0.N,
    win0_1.index t (0 : Fin 2) = t.val / 4 ∧ win0_1.index t (1 : Fin 2) = 0 :=
  (by decide +kernel : ∀ t : Fin grid0.N, _)

/-- What a point with j = 3 writes back is its block of the array of row maxima. -/
theorem flushedRows_eq (hlast : RowsLast)
    (V : (c : Dev nD) → (b : Ref sig .tc) → Buf (Elt Ideal) ((c : Thread nD τ).loc b)) (c : Dev nD) (t : Fin cfg0.N)
    (hf : (cfg0.win 1).flush t = true) :
    (dat0 V c).flushed 1 t = ((cfg0.win 1).blk t).view.read (Elt Ideal)
      (fun i : S512x256.Idx => Cert.Spec.sPool (V c main_arg0) (i 0) (i 1)) := by
  have h3 : t.val % 4 = 3 := (flush0_1 t).mp hf
  show (cfg0.win 1).cut (cfg0.grid.coords t) ((dat0 V c).after 1 t) = _
  rw [after0_1]
  obtain ⟨e0, e1⟩ := idx_facts0_rows t
  funext j
  have hj0 : (j 0).val < 128 := (j 0).isLt
  have hj1 : (j 1).val < 256 := (j 1).isLt
  show accAt V c t.val t.isLt ((cfg0.win 1).xinj (cfg0.grid.coords t) j)
    = Cert.Spec.sPool (V c main_arg0) ((((cfg0.win 1).blk t).view.emb j) 0) ((((cfg0.win 1).blk t).view.emb j) 1)
  have hcol : ((((cfg0.win 1).blk t).view.emb j) 1 : Fin 256) = ⟨(j 1).val, hj1⟩ :=
    Fin.ext (by show win0_1.index t (1 : Fin 2) * 256 + 1 * (j 1).val = (j 1).val; rw [e1]; omega)
  refine Eq.trans ?_ (congrArg (Cert.Spec.sPool (V c main_arg0) ((((cfg0.win 1).blk t).view.emb j) 0)) hcol.symm)
  refine (congrArg (accAt V c t.val t.isLt)
    (?_ : (cfg0.win 1).xinj (cfg0.grid.coords t) j = ix2 (⟨(j 0).val, hj0⟩ : Fin 128) (⟨(j 1).val, hj1⟩ : Fin 256))).trans ?_
  · funext a
    match a with
    | ⟨0, _⟩ => rfl
    | ⟨1, _⟩ => rfl
  · exact hlast V c t h3 ⟨(j 0).val, hj0⟩ ⟨(j 1).val, hj1⟩ _
      (by show win0_1.index t (0 : Fin 2) * 128 + 1 * (j 0).val = 128 * (t.val / 4) + (j 0).val; rw [e0]; omega)

/-- An index of the row-maximum array is in point t's block iff each coordinate is in the block's range on its axis. -/
theorem mem_blkRows (t : Fin cfg0.N) (i : S512x256.Idx) :
    i ∈ ((cfg0.win 1).blk t).view.set ↔ ∀ a : Fin 2, win0_1.index t a * S128x256.size a ≤ (i a).val ∧ (i a).val < win0_1.index t a * S128x256.size a + S128x256.size a := by
  show i ∈ ((View.whole main_v2_0).slice (win0_1.rect t)).set ↔ _
  rw [View.set_slice_whole, Rect.mem_set_unit]
  exact Iff.rfl

/-- Every index (a, f) is in the block of the point 4 (a / 128) + 3, which writes back. -/
theorem coverRows (i : S512x256.Idx) :
    ∃ t : Fin cfg0.N, (cfg0.win 1).flush t = true ∧ i ∈ ((cfg0.win 1).blk t).view.set := by
  have h0 : (i 0).val < 512 := (i 0).isLt
  have h1 : (i 1).val < 256 := (i 1).isLt
  obtain ⟨t, ht⟩ : ∃ t : Fin cfg0.N, t.val = 4 * ((i 0).val / 128) + 3 :=
    ⟨⟨4 * ((i 0).val / 128) + 3, by show _ < grid0.N; rw [N_0]; omega⟩, rfl⟩
  obtain ⟨e0, e1⟩ := idx_facts0_rows t
  refine ⟨t, (flush0_1 t).mpr (by omega), ?_⟩
  rw [mem_blkRows]
  intro a
  match a with
  | ⟨0, _⟩ => show win0_1.index t (0 : Fin 2) * 128 ≤ (i 0).val ∧ (i 0).val < win0_1.index t (0 : Fin 2) * 128 + 128; rw [e0]; omega
  | ⟨1, _⟩ => show win0_1.index t (1 : Fin 2) * 256 ≤ (i 1).val ∧ (i 1).val < win0_1.index t (1 : Fin 2) * 256 + 256; rw [e1]; omega

/-- The row-maximum array after the first call, given what the buffer holds at the points with j = 3. -/
theorem final0_rows (hlast : RowsLast) : RowsFact :=
  fun V c => (dat0 V c).arrAt_eq_of_cover 1 _ (fun t hf => flushedRows_eq hlast V c t hf) coverRows

end Cert.KernelIdeal.HandValue

end
-- ==== Proof.LibMaxRegroup.lean ====
/-
  Regrouping a maximum over 512 columns into four maxima over 128 columns each, on the extended reals.

  For g : Fin 512 → EReal and e, write M(n) for the maximum from e of g over the s below n. Then
    the maximum from e over q < 128 of g q is M(128),
    max (M (128 j)) (the maximum from e over q < 128 of g (128 j + q)) = M (128 (j + 1)),
    and M(512) is the maximum over all columns.
  Each is proved by comparing upper bounds.
-/
import Idealize.ShloMosaic.PureOps.Ideal

noncomputable section

namespace Cert.KernelIdeal.HandValue

/-! ## Regrouping a maximum -/

section Regroup

/-- Two extended reals with the same upper bounds are equal. -/
theorem eq_of_upper_iff {a b : EReal} (h : ∀ c, a ≤ c ↔ b ≤ c) : a = b :=
  le_antisymm ((h b).mpr le_rfl) ((h a).mp le_rfl)

/-- The maximum from `e` of `g` over the columns below `n`. -/
def prefixMax (e : EReal) (g : Fin 512 → EReal) (n : ℕ) : EReal :=
  (Finset.univ.filter fun s : Fin 512 => s.val < n).fold max e g

theorem prefixMax_le_iff (e : EReal) (g : Fin 512 → EReal) (n : ℕ) (c : EReal) :
    prefixMax e g n ≤ c ↔ e ≤ c ∧ ∀ s : Fin 512, s.val < n → g s ≤ c := by
  unfold prefixMax
  rw [Finset.fold_max_le]
  constructor
  · rintro ⟨h0, h1⟩; exact ⟨h0, fun s hs => h1 s (Finset.mem_filter.mpr ⟨Finset.mem_univ _, hs⟩)⟩
  · rintro ⟨h0, h1⟩; exact ⟨h0, fun s hs => h1 s (Finset.mem_filter.mp hs).2⟩

/-- Over all 512 columns it is the whole maximum. -/
theorem prefixMax_all (e : EReal) (g : Fin 512 → EReal) : prefixMax e g 512 = Finset.univ.fold max e g := by
  unfold prefixMax
  rw [Finset.filter_true_of_mem fun s _ => s.isLt]

/-- The first group of 128 columns. -/
theorem prefixMax_first (e : EReal) (g : Fin 512 → EReal) :
    Finset.univ.fold max e (fun q : Fin 128 => g ⟨q.val, by omega⟩) = prefixMax e g 128 := by
  refine eq_of_upper_iff fun c => ?_
  rw [prefixMax_le_iff, Finset.fold_max_le]
  constructor
  · rintro ⟨h0, h1⟩
    exact ⟨h0, fun s hs => h1 ⟨s.val, hs⟩ (Finset.mem_univ _)⟩
  · rintro ⟨h0, h1⟩
    exact ⟨h0, fun q _ => h1 ⟨q.val, by omega⟩ q.isLt⟩

/-- One more group of 128 columns. -/
theorem prefixMax_step (e : EReal) (g : Fin 512 → EReal) (j : ℕ) (hj : j < 4) :
    max (prefixMax e g (128 * j)) (Finset.univ.fold max e (fun q : Fin 128 => g ⟨128 * j + q.val, by omega⟩))
      = prefixMax e g (128 * (j + 1)) := by
  refine eq_of_upper_iff fun c => ?_
  rw [max_le_iff, prefixMax_le_iff, prefixMax_le_iff, Finset.fold_max_le]
  constructor
  · rintro ⟨⟨h0, h1⟩, -, h2⟩
    refine ⟨h0, fun s hs => ?_⟩
    by_cases hlt : s.val < 128 * j
    · exact h1 s hlt
    · have e1 : s = ⟨128 * j + (⟨s.val - 128 * j, by omega⟩ : Fin 128).val, by simp only; omega⟩ :=
        Fin.ext (by simp only; omega)
      rw [e1]
      exact h2 ⟨s.val - 128 * j, by omega⟩ (Finset.mem_univ _)
  · rintro ⟨h0, h1⟩
    exact ⟨⟨h0, fun s hs => h1 s (by omega)⟩, h0, fun q _ => h1 ⟨128 * j + q.val, by omega⟩ (by simp only; omega)⟩

/-- The first group, for any function that reads those columns. -/
theorem prefixMax_first' (e : EReal) (g : Fin 512 → EReal) (h : Fin 128 → EReal)
    (hh : ∀ q : Fin 128, h q = g ⟨q.val, by omega⟩) :
    Finset.univ.fold max e h = prefixMax e g 128 := by
  rw [show h = fun q : Fin 128 => g ⟨q.val, by omega⟩ from funext hh]
  exact prefixMax_first e g

/-- One more group, for any value that is the maximum so far and any function that reads the group's columns. -/
theorem prefixMax_step' (e : EReal) (g : Fin 512 → EReal) (j : ℕ) (hj : j < 4) (a : EReal) (h : Fin 128 → EReal)
    (ha : a = prefixMax e g (128 * j)) (hh : ∀ q : Fin 128, h q = g ⟨128 * j + q.val, by omega⟩) :
    max a (Finset.univ.fold max e h) = prefixMax e g (128 * (j + 1)) := by
  rw [ha, show h = fun q : Fin 128 => g ⟨128 * j + q.val, by omega⟩ from funext hh]
  exact prefixMax_step e g j hj

end Regroup

end Cert.KernelIdeal.HandValue

end
-- ==== Proof.LibBlockMax.lean ====
/-
  The maxima the first call's body takes of its block, read at an index on the extended reals.

  For a block x : [128, 128, 256] (rows p, columns q, features f), the reduction over axis 1 at (p, f) is the maximum
  over q of x[p, q, f], from the pattern of minus infinity; the body stores it (when the column block is the first) or
  the elementwise maximum of the buffer and it (otherwise).
-/
import proofs.«104515_j28578712388215_2_alg».proof.Proof.DataI
import proofs.«104515_j28578712388215_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.ShloMosaic.Pipeline (Dat Cfg Window)

/-- A maximum reduction of a [128, 128, 256] block over its column axis, at row `p` and feature `f`: the maximum over
    the 128 columns, from the accumulator's value. -/
theorem colMax_apply (x : FVec Ideal S128x128x256 .f32) (h : S128x128x256.Reduces [1] S128x256) (hφ : FKind.Formats .f32)
    (hacc : (0xFF800000#32 : BitVec 32) = FKind.maximumf.neutral .f32 hφ) (p : Fin 128) (f : Fin 256) :
    multiReduction .maximumf [1] S128x256 x 0xFF800000#32 h hφ hacc (ix2 p f)
      = Finset.univ.fold max (Ideal.ofBits .f32 0xFF800000#32) (fun q : Fin 128 => x (ix3 p q f)) := by
  have h1 := Ideal.multiReduction_maximumf_single x 0xFF800000#32 h hφ hacc (ix2 p f)
  refine h1.trans ?_
  refine congrArg (Finset.univ.fold max (Ideal.ofBits .f32 0xFF800000#32)) (funext fun q => ?_)
  show x (h.lift (ix2 p f) q) = x (ix3 p q f)
  refine congrArg x (funext fun a => Fin.ext ?_)
  match a with
  | ⟨0, _⟩ => rfl
  | ⟨1, _⟩ => rfl
  | ⟨2, _⟩ => rfl

/-- What the body stores when the column block is the first: the block's maximum over its columns. -/
theorem colMax_pay1 (x : Vec Ideal S128x128x256 .f32) (p : Fin 128) (f : Fin 256) :
    k0_pay1 x (ix2 p f) = Finset.univ.fold max Cert.Spec.start (fun q : Fin 128 => x (ix3 p q f)) :=
  colMax_apply x reduces_S128x128x256_S128x256 (.inl rfl) rfl p f

/-- The elementwise maximum after a shape cast to the same shape, at an index. -/
theorem maxCast_apply (acc : Vec Ideal S128x256 .f32) (m : FVec Ideal S128x256 .f32) (hc : S128x256.ShapeCasts S128x256)
    (i : S128x256.Idx) : maximumf (shapeCast S128x256 acc hc) m i = max (acc i) (m i) := by
  rw [shapeCast_self]; rfl

/-- What the body stores otherwise: the maximum of the buffer and the block's maximum over its columns. -/
theorem colMax_pay2 (acc : Vec Ideal S128x256 .f32) (x : Vec Ideal S128x128x256 .f32) (p : Fin 128) (f : Fin 256) :
    k0_pay2 acc x (ix2 p f)
      = max (acc (ix2 p f)) (Finset.univ.fold max Cert.Spec.start (fun q : Fin 128 => x (ix3 p q f))) :=
  (maxCast_apply acc (k0_pay1 x) _ (ix2 p f)).trans (congrArg (max (acc (ix2 p f))) (colMax_pay1 x p f))

end Cert.KernelIdeal.HandValue

end
-- ==== Proof.RowsAcc.lean ====
/-
  What the row-maximum buffer of the first call holds after each grid point.

  The point t = 4 i + j reads the block x[128 i + p, 128 j + q, f] (p, q < 128). After the body at j = 0 the buffer holds
  at (p, f) the maximum over q of that block; after the body at j > 0 the maximum of what it held and the block's. So by
  induction on j the buffer after point 4 i + j holds at (p, f) the maximum of x[128 i + p, s, f] over the columns
  s < 128 (j + 1), and after j = 3 the maximum over all 512 columns.
-/
import proofs.«104515_j28578712388215_2_alg».proof.Proof.DataI
import proofs.«104515_j28578712388215_2_alg».proof.Proof.Spec
import proofs.«104515_j28578712388215_2_alg».proof.Proof.LibMaxRegroup
import proofs.«104515_j28578712388215_2_alg».proof.Proof.LibBlockMax
import Idealize.ShloMosaic.Lib.Pipeline.Value
import Idealize.ShloMosaic.Lib.ValueIdx

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.ShloMosaic.Pipeline (Dat Cfg Window)

/-- The offsets of a whole-buffer rectangle are all zero. -/
theorem rows_hzA : (![0, 0] : Fin 2 → Nat) = fun _ => 0 := funext fun a => by fin_cases a <;> rfl
theorem rows_hzX : (![0, 0, 0] : Fin 3 → Nat) = fun _ => 0 := funext fun a => by fin_cases a <;> rfl

/-! ## The buffer after one body, at an index -/

/-- After the body at j = 0: the block's maximum over its columns. -/
theorem accFirst_apply (x0 : Vec Ideal S128x128x256 .f32) (p : Fin 128) (f : Fin 256) :
    accFirst x0 (ix2 p f) = Finset.univ.fold max Cert.Spec.start (fun q : Fin 128 => x0 (ix3 p q f)) := by
  unfold accFirst
  rw [View.canon_unit_zero rows_hzA]
  simp only [View.ld_unit_zero (S := S128x128x256) rows_hzX]
  exact colMax_pay1 x0 p f

/-- After the body at j > 0: the maximum of what the buffer held and the block's maximum over its columns. -/
theorem accNext_apply (x0 : Vec Ideal S128x128x256 .f32) (acc : Vec Ideal S128x256 .f32) (p : Fin 128) (f : Fin 256) :
    accNext x0 acc (ix2 p f)
      = max (acc (ix2 p f)) (Finset.univ.fold max Cert.Spec.start (fun q : Fin 128 => x0 (ix3 p q f))) := by
  unfold accNext
  rw [View.canon_unit_zero rows_hzA]
  simp only [View.ld_unit_zero (S := S128x128x256) rows_hzX, View.ld_unit_zero (S := S128x256) rows_hzA]
  exact colMax_pay2 acc x0 p f

/-! ## The input block at a point -/

/-- The input window's block index at point t is (t / 4, t % 4, 0), decided over the grid. -/
theorem rows_idx_in : ∀ t : Fin cfg0.N, win0_0.index t (0 : Fin 3) = t.val / 4
    ∧ win0_0.index t (1 : Fin 3) = t.val % 4 ∧ win0_0.index t (2 : Fin 3) = 0 :=
  (by decide +kernel : ∀ t : Fin grid0.N, _)

/-- The input block at point t = 4 i + j, at (p, q, f), is x[128 i + p, 128 j + q, f]. -/
theorem rows_argBlock_apply (V : (c : Dev nD) → (b : Ref sig .tc) → Buf (Elt Ideal) ((c : Thread nD τ).loc b)) (c : Dev nD)
    (t : Fin cfg0.N) (i j : ℕ) (ht : t.val = 4 * i + j) (hj : j < 4) (p q : Fin 128) (f : Fin 256) (r s : Fin 512)
    (hr : r.val = 128 * i + p.val) (hs : s.val = 128 * j + q.val) :
    (iblk0 (F := Ideal) V c 0 t : Vec Ideal S128x128x256 .f32) (ix3 p q f)
      = (V c main_arg0 : S512x512x256.Idx → EReal) (ix3 r s f) := by
  obtain ⟨e0, e1, e2⟩ := rows_idx_in t
  unfold iblk0
  rw [View.read_apply]
  show V c main_arg0 _ = V c main_arg0 _
  congr 1
  funext a
  apply Fin.ext
  match a with
  | ⟨0, _⟩ => show win0_0.index t (0 : Fin 3) * 128 + 1 * p.val = r.val; omega
  | ⟨1, _⟩ => show win0_0.index t (1 : Fin 3) * 128 + 1 * q.val = s.val; omega
  | ⟨2, _⟩ => show win0_0.index t (2 : Fin 3) * 256 + 1 * f.val = f.val; omega

/-! ## The buffer after point 4 i + j -/

/-- Row r of x at feature f, as a function of the column. -/
def rowOf (x : Cert.Spec.X.Idx → EReal) (r : Fin 512) (f : Fin 256) : Fin 512 → EReal := fun s => x (ix3 r s f)

theorem sPool_eq_fold_rowOf (x : Cert.Spec.X.Idx → EReal) (r : Fin 512) (f : Fin 256) :
    Cert.Spec.sPool x r f = Finset.univ.fold max Cert.Spec.start (rowOf x r f) := rfl

/-- The buffer at a position does not depend on how the position is written. -/
theorem accAt_congr (V : (c : Dev nD) → (b : Ref sig .tc) → Buf (Elt Ideal) ((c : Thread nD τ).loc b)) (c : Dev nD)
    {n n' : ℕ} (e : n = n') (hn : n < cfg0.N) (hn' : n' < cfg0.N) : accAt V c n hn = accAt V c n' hn' := by
  subst e; rfl

/-- After point 4 i + j the buffer holds at (p, f) the maximum of row 128 i + p over the columns below 128 (j + 1). -/
theorem accAt_prefix (V : (c : Dev nD) → (b : Ref sig .tc) → Buf (Elt Ideal) ((c : Thread nD τ).loc b)) (c : Dev nD)
    (i : ℕ) (hi : i < 4) (p : Fin 128) (f : Fin 256) (r : Fin 512) (hr : r.val = 128 * i + p.val) :
    ∀ (j : ℕ) (hj : j < 4) (h : 4 * i + j < cfg0.N),
      accAt (F := Ideal) V c (4 * i + j) h (ix2 p f)
        = prefixMax Cert.Spec.start (rowOf (V c main_arg0) r f) (128 * (j + 1))
  | 0, hj, h => by
    have e := accAt_first V c ⟨4 * i + 0, h⟩ (by show (4 * i + 0) % 4 = 0; omega)
    refine (congrFun e (ix2 p f)).trans ?_
    refine (accFirst_apply _ p f).trans ?_
    refine prefixMax_first' _ _ _ fun q => ?_
    exact rows_argBlock_apply V c ⟨4 * i + 0, h⟩ i 0 rfl (by omega) p q f r ⟨q.val, by omega⟩ hr (by show q.val = 128 * 0 + q.val; omega)
  | j + 1, hj, h => by
    have hne : ¬(4 * i + (j + 1)) % 4 = 0 := by omega
    have e := accAt_next V c ⟨4 * i + (j + 1), h⟩ hne
    refine (congrFun e (ix2 p f)).trans ?_
    refine (accNext_apply _ _ p f).trans ?_
    refine prefixMax_step' _ _ (j + 1) hj _ _ ?_ fun q => ?_
    · have ih := accAt_prefix V c i hi p f r hr j (by omega) (by omega)
      refine (congrFun (accAt_congr V c (by show 4 * i + (j + 1) - 1 = 4 * i + j; omega) _ (by omega)) (ix2 p f)).trans ih
    · exact rows_argBlock_apply V c ⟨4 * i + (j + 1), h⟩ i (j + 1) rfl hj p q f r ⟨128 * (j + 1) + q.val, by omega⟩ hr rfl

/-- After the last point of a row of blocks (t % 4 = 3) the buffer holds the maximum over all 512 columns. -/
theorem accAt_last (V : (c : Dev nD) → (b : Ref sig .tc) → Buf (Elt Ideal) ((c : Thread nD τ).loc b)) (c : Dev nD)
    (t : Fin cfg0.N) (h3 : t.val % 4 = 3) (p : Fin 128) (f : Fin 256) (r : Fin 512) (hr : r.val = 128 * (t.val / 4) + p.val) :
    accAt (F := Ideal) V c t.val t.isLt (ix2 p f) = Cert.Spec.sPool (V c main_arg0) r f := by
  have hN : cfg0.N = 16 := N_0
  have ht := t.isLt
  have e := accAt_prefix V c (t.val / 4) (by omega) p f r hr 3 (by omega) (by omega)
  rw [sPool_eq_fold_rowOf, ← prefixMax_all]
  refine (congrFun (accAt_congr V c (by omega) _ _) (ix2 p f)).trans e

end Cert.KernelIdeal.HandValue

end
-- ==== Proof.lean ====
/-
  The claim: the kernel (a fused max-pooling call, two matrix products on the host, a broadcast-add call) and its
  reference compute the same [512,512,256] array on the extended reals,
    out[t, s, g] = (sum over f of max_s' x[t, s', f] * w[g, f]) + (sum over f of max_t' x[t', s, f] * w[g, 256 + f]) + b[g],
  and each program runs to the end leaving its three arguments as launched.
  The kernel's maxima are taken block by block (128 columns at a time into a carried buffer; 128 rows at a time into
  partial results joined on the host): a maximum over 512 entries regrouped as 4 x 128, which needs no finiteness.
-/
import proofs.«104515_j28578712388215_2_alg».proof.Defs
import proofs.«104515_j28578712388215_2_alg».proof.Proof.Gen.Kernel
import proofs.«104515_j28578712388215_2_alg».proof.Proof.Gen.KernelIdeal
import proofs.«104515_j28578712388215_2_alg».proof.Proof.Gen.ReferenceIdeal
import proofs.«104515_j28578712388215_2_alg».proof.Proof.Gen.Pre_finite_inputs
import proofs.«104515_j28578712388215_2_alg».proof.Proof.RunB
import proofs.«104515_j28578712388215_2_alg».proof.Proof.RunI
import proofs.«104515_j28578712388215_2_alg».proof.Proof.RefValue
import proofs.«104515_j28578712388215_2_alg».proof.Proof.KernelValue
import proofs.«104515_j28578712388215_2_alg».proof.Proof.FinalSum
import proofs.«104515_j28578712388215_2_alg».proof.Proof.FinalPart
import proofs.«104515_j28578712388215_2_alg».proof.Proof.FinalRows
import proofs.«104515_j28578712388215_2_alg».proof.Proof.RowsAcc

noncomputable section

namespace Cert.Proof

open Idealize.ShloMosaic Idealize.ShloMosaic.TcCoe Idealize.SL.Sem

section
variable [Cert.Kernel.Facts] [Cert.KernelIdeal.Facts] [Cert.ReferenceIdeal.Facts] [Cert.Pre_finite_inputs.Facts]

/-- The kernel as printed runs to the end and leaves its arguments as launched. -/
theorem frame_k : Cert.frame_Kernel := fun m ρ _ => Cert.Kernel.Hand.frame (F := Bits) m ρ
/-- So does its idealization. -/
theorem frame_ki : Cert.frame_KernelIdeal := fun m ρ _ => Cert.KernelIdeal.Hand.frame (F := Ideal) m ρ
/-- So does the reference: its run with the result dropped. -/
theorem frame_ri : Cert.frame_ReferenceIdeal := fun m ρ _ =>
  (θ_run Cert.ReferenceIdeal.defs _ _).mono (fun _ h c => (h c).2) (Cert.RefValue.run m ρ)

/-- The idealization rewrote nothing. -/
theorem preserves : Cert.preserves_Kernel_KernelIdeal := trivial

/-- The second call's array in the form the host chain is read with. -/
theorem sumFact : Cert.KernelIdeal.HandValue.SumFact := fun V c =>
  (Cert.KernelIdeal.HandValue.final1 V c).trans (funext fun _ => rfl)

/-- The first call's accumulated row maxima are the maxima over all 512 columns. -/
theorem rowsFact : Cert.KernelIdeal.HandValue.RowsFact :=
  Cert.KernelIdeal.HandValue.final0_rows Cert.KernelIdeal.HandValue.accAt_last

/-- Both programs end with the specification's array of the (agreeing) arguments. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)), ?_, ?_⟩
  · refine (θ_run Cert.KernelIdeal.defs _ _).mono (fun _ h c => ⟨?_, ?_, ?_, ?_⟩) (Cert.KernelIdeal.Hand.run_all (F := Ideal) m ρ)
    · exact (h c _ (Cert.KernelIdeal.Hand.mem_uc Cert.KernelIdeal.main_v6 (by decide))).trans
        (Cert.KernelIdeal.HandValue.kernel_value rowsFact Cert.KernelIdeal.HandValue.final0_part sumFact m ρ c)
    · exact (h c _ (Cert.KernelIdeal.Hand.mem_uc Cert.KernelIdeal.main_arg0 (by decide))).trans (Cert.KernelIdeal.Hand.W4_main_arg0 m ρ c)
    · exact (h c _ (Cert.KernelIdeal.Hand.mem_uc Cert.KernelIdeal.main_arg1 (by decide))).trans (Cert.KernelIdeal.Hand.W4_main_arg1 m ρ c)
    · exact (h c _ (Cert.KernelIdeal.Hand.mem_uc Cert.KernelIdeal.main_arg2 (by decide))).trans (Cert.KernelIdeal.Hand.W4_main_arg2 m ρ c)
  · refine (θ_run Cert.ReferenceIdeal.defs _ _).mono (fun _ h c => ⟨?_, (h c).2⟩) (Cert.RefValue.run m' ρ')
    rw [(h c).1, (hagree c).1, (hagree c).2.1, (hagree c).2.2]

end

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
